-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v41)) (v1 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x768 : Shape := ⟨3, ![16, 4096, 768]⟩
abbrev S16x4096 : Shape := ⟨2, ![16, 4096]⟩
abbrev S_ : Shape := ⟨0, ![]⟩

class Facts : Prop where
  bcast_S_S16x4096x768 : S_.BroadcastsInDim S16x4096x768 (![] : Fin 0 → Fin S16x4096x768.rank)
  reducesTo_S16x4096x768_S_d0_1_2 : S16x4096x768.ReducesTo [0, 1, 2] S_
  h_S_ : 0 < S_.numel
  bcast_S_S16x4096 : S_.BroadcastsInDim S16x4096 (![] : Fin 0 → Fin S16x4096.rank)
  reducesTo_S16x4096_S_d0_1 : S16x4096.ReducesTo [0, 1] S_

variable [Facts]

def fn {F : FTy → Type} [FloatOps F] (main_arg0 : FVec F S16x4096x768 .f32) (main_arg1 : IVec S16x4096 32) : IVec S_ 1 :=
  let main_v0 : FVec F S16x4096x768 .f32 := Host.absf main_arg0
  let main_cst : FVec F S_ .f32 := constant S_ .f32 0x7F800000#32
  let main_v1 : FVec F S16x4096x768 .f32 := broadcastInDim S16x4096x768 ![] bcast_S_S16x4096x768 main_cst
  let main_v2 : IVec S16x4096x768 1 := cmpf .olt main_v0 main_v1
  let main_c : IVec S_ 1 := constantI S_ 1 1#1
  let main_v3 : IVec S_ 1 := (fun x v => Host.reduce IntOp.andi x v reducesTo_S16x4096x768_S_d0_1_2 h_S_) main_v2 main_c
  let main_c_0 : IVec S_ 32 := constantI S_ 32 0#32
  let main_v4 : IVec S16x4096 32 := broadcastInDim S16x4096 ![] bcast_S_S16x4096 main_c_0
  let main_v5 : IVec S16x4096 1 := cmpi .sge main_arg1 main_v4
  let main_c_1 : IVec S_ 32 := constantI S_ 32 4096#32
  let main_v6 : IVec S16x4096 32 := broadcastInDim S16x4096 ![] bcast_S_S16x4096 main_c_1
  let main_v7 : IVec S16x4096 1 := cmpi .slt main_arg1 main_v6
  let main_v8 : IVec S16x4096 1 := andi main_v5 main_v7
  let main_c_2 : IVec S_ 1 := constantI S_ 1 1#1
  let main_v9 : IVec S_ 1 := (fun x v => Host.reduce IntOp.andi x v reducesTo_S16x4096_S_d0_1 h_S_) main_v8 main_c_2
  let main_v10 : IVec S_ 1 := andi main_v3 main_v9
  main_v10
-- ==== Kernel.lean ====
abbrev S16x4096x768 : Shape := ⟨3, ![16, 4096, 768]⟩
abbrev S16x4096 : Shape := ⟨2, ![16, 4096]⟩
abbrev S16x1x4096 : Shape := ⟨3, ![16, 1, 4096]⟩
abbrev S16 : Shape := ⟨1, ![16]⟩
abbrev S16x1 : Shape := ⟨2, ![16, 1]⟩
abbrev S_ : Shape := ⟨0, ![]⟩
abbrev S65536 : Shape := ⟨1, ![65536]⟩
abbrev S65536x1 : Shape := ⟨2, ![65536, 1]⟩
abbrev S16x4096x1 : Shape := ⟨3, ![16, 4096, 1]⟩
abbrev S16x4x1024 : Shape := ⟨3, ![16, 4, 1024]⟩
abbrev S16x4 : Shape := ⟨2, ![16, 4]⟩
abbrev S4 : Shape := ⟨1, ![4]⟩
abbrev S16x1x4 : Shape := ⟨3, ![16, 1, 4]⟩
abbrev S1x4x1 : Shape := ⟨3, ![1, 4, 1]⟩
abbrev S16x4x4 : Shape := ⟨3, ![16, 4, 4]⟩
abbrev S256 : Shape := ⟨1, ![256]⟩
abbrev S1x1024x768 : Shape := ⟨3, ![1, 1024, 768]⟩
abbrev S1x1x1024 : Shape := ⟨3, ![1, 1, 1024]⟩
abbrev S1x1024x1 : Shape := ⟨3, ![1, 1024, 1]⟩
abbrev S1024x768 : Shape := ⟨2, ![1024, 768]⟩
abbrev S1 : Shape := ⟨1, ![1]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 53
  | .vmem => 9
  | .smem => 1
  | _ => 0

abbrev bufTy : (tb : Table) → Fin (tcTables nBuf tb) → BufTy
  | .hbm, ⟨0, _⟩ => ⟨S16x4096x768, .f32⟩
  | .hbm, ⟨1, _⟩ => ⟨S16x4096, .i32⟩
  | .hbm, ⟨2, _⟩ => ⟨S16x1x4096, .i32⟩
  | .hbm, ⟨3, _⟩ => ⟨S16, .i32⟩
  | .hbm, ⟨4, _⟩ => ⟨S16x1, .i32⟩
  | .hbm, ⟨5, _⟩ => ⟨S_, .i32⟩
  | .hbm, ⟨6, _⟩ => ⟨S16x1, .i32⟩
  | .hbm, ⟨7, _⟩ => ⟨S16x1, .i32⟩
  | .hbm, ⟨8, _⟩ => ⟨S16x4096, .i32⟩
  | .hbm, ⟨9, _⟩ => ⟨S16x4096, .i32⟩
  | .hbm, ⟨10, _⟩ => ⟨S65536, .i32⟩
  | .hbm, ⟨11, _⟩ => ⟨S_, .f32⟩
  | .hbm, ⟨12, _⟩ => ⟨S65536, .f32⟩
  | .hbm, ⟨13, _⟩ => ⟨S_, .f32⟩
  | .hbm, ⟨14, _⟩ => ⟨S65536, .f32⟩
  | .hbm, ⟨15, _⟩ => ⟨S65536x1, .i32⟩
  | .hbm, ⟨16, _⟩ => ⟨S65536, .f32⟩
  | .hbm, ⟨17, _⟩ => ⟨S16x4096, .f32⟩
  | .hbm, ⟨18, _⟩ => ⟨S_, .f32⟩
  | .hbm, ⟨19, _⟩ => ⟨S16x4096, .f32⟩
  | .hbm, ⟨20, _⟩ => ⟨S16x4096, .i1⟩
  | .hbm, ⟨21, _⟩ => ⟨S_, .f32⟩
  | .hbm, ⟨22, _⟩ => ⟨S16x4096, .f32⟩
  | .hbm, ⟨23, _⟩ => ⟨S16x4096, .f32⟩
  | .hbm, ⟨24, _⟩ => ⟨S_, .f32⟩
  | .hbm, ⟨25, _⟩ => ⟨S16x4096, .f32⟩
  | .hbm, ⟨26, _⟩ => ⟨S16x4096, .f32⟩
  | .hbm, ⟨27, _⟩ => ⟨S16x4096x1, .f32⟩
  | .hbm, ⟨28, _⟩ => ⟨S16x4x1024, .i32⟩
  | .hbm, ⟨29, _⟩ => ⟨S_, .i32⟩
  | .hbm, ⟨30, _⟩ => ⟨S16x4, .i32⟩
  | .hbm, ⟨31, _⟩ => ⟨S_, .i32⟩
  | .hbm, ⟨32, _⟩ => ⟨S16x4, .i32⟩
  | .hbm, ⟨33, _⟩ => ⟨S4, .i32⟩
  | .hbm, ⟨34, _⟩ => ⟨S_, .i32⟩
  | .hbm, ⟨35, _⟩ => ⟨S4, .i32⟩
  | .hbm, ⟨36, _⟩ => ⟨S4, .i32⟩
  | .hbm, ⟨37, _⟩ => ⟨S_, .i32⟩
  | .hbm, ⟨38, _⟩ => ⟨S4, .i32⟩
  | .hbm, ⟨39, _⟩ => ⟨S4, .i32⟩
  | .hbm, ⟨40, _⟩ => ⟨S16x1x4, .i32⟩
  | .hbm, ⟨41, _⟩ => ⟨S1x4x1, .i32⟩
  | .hbm, ⟨42, _⟩ => ⟨S16x4x4, .i32⟩
  | .hbm, ⟨43, _⟩ => ⟨S16x4x4, .i32⟩
  | .hbm, ⟨44, _⟩ => ⟨S16x4x4, .i1⟩
  | .hbm, ⟨45, _⟩ => ⟨S16x1x4, .i32⟩
  | .hbm, ⟨46, _⟩ => ⟨S1x4x1, .i32⟩
  | .hbm, ⟨47, _⟩ => ⟨S16x4x4, .i32⟩
  | .hbm, ⟨48, _⟩ => ⟨S16x4x4, .i32⟩
  | .hbm, ⟨49, _⟩ => ⟨S16x4x4, .i1⟩
  | .hbm, ⟨50, _⟩ => ⟨S16x4x4, .i1⟩
  | .hbm, ⟨51, _⟩ => ⟨S16x4x4, .i32⟩
  | .hbm, ⟨52, _⟩ => ⟨S16x4096x768, .f32⟩
  | .local _ .vmem, ⟨0, _⟩ => ⟨S1x1024x768, .f32⟩
  | .local _ .vmem, ⟨1, _⟩ => ⟨S1x1024x768, .f32⟩
  | .local _ .vmem, ⟨2, _⟩ => ⟨S1x1x1024, .i32⟩
  | .local _ .vmem, ⟨3, _⟩ => ⟨S1x1x1024, .i32⟩
  | .local _ .vmem, ⟨4, _⟩ => ⟨S1x1024x1, .f32⟩
  | .local _ .vmem, ⟨5, _⟩ => ⟨S1x1024x1, .f32⟩
  | .local _ .vmem, ⟨6, _⟩ => ⟨S1x1024x768, .f32⟩
  | .local _ .vmem, ⟨7, _⟩ => ⟨S1x1024x768, .f32⟩
  | .local _ .vmem, ⟨8, _⟩ => ⟨S1024x768, .f32⟩
  | .local _ .smem, ⟨0, _⟩ => ⟨S256, .i32⟩
  | _, _ => ⟨S16x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_4 : Ref sig .tc := ⟨.hbm, 29, rfl⟩
abbrev main_v21 : Ref sig .tc := ⟨.hbm, 30, rfl⟩
abbrev main_c_5 : Ref sig .tc := ⟨.hbm, 31, rfl⟩
abbrev main_v22 : Ref sig .tc := ⟨.hbm, 32, rfl⟩
abbrev main_v23 : Ref sig .tc := ⟨.hbm, 33, rfl⟩
abbrev main_c_6 : Ref sig .tc := ⟨.hbm, 34, rfl⟩
abbrev main_v24 : Ref sig .tc := ⟨.hbm, 35, rfl⟩
abbrev main_v25 : Ref sig .tc := ⟨.hbm, 36, rfl⟩
abbrev main_c_7 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v41 : Ref sig .tc := ⟨.hbm, 52, rfl⟩
abbrev main_v40 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 4], ![false, false, false]⟩

abbrev pre0 : Pipeline.Prefetch sig := ⟨1, ![main_v40.idx], fun | 0 => main_v40.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c16_i32 : BitVec 32 := 16#32
  let v3 : BitVec 32 := Scalar.muli arg0 c16_i32
  let arg1 : BitVec 32 := BitVec.ofNat 32 (i 1).val
  let c4_i32 : BitVec 32 := 4#32
  let v4 : BitVec 32 := Scalar.muli arg1 c4_i32
  let v5 : BitVec 32 := Scalar.addi v3 v4
  let arg2 : BitVec 32 := BitVec.ofNat 32 (i 2).val
  let v6 : BitVec 32 := Scalar.addi v5 arg2
  let v7 : Index := Scalar.indexCast v6
  ![v7.toNat]
def k0_cond3 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_3 : BitVec 32 := 0#32
  let v14 : BitVec 1 := Scalar.cmpi .ne v13 c0_i32_3
  v14

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S16x4096_S16x1x4096 : S16x4096.ShapeCasts S16x1x4096
  bcast_S16_S16x1_0 : S16.BroadcastsInDim S16x1 (![0] : Fin 1 → Fin S16x1.rank)
  bcast_S_S16x1 : S_.BroadcastsInDim S16x1 (![] : Fin 0 → Fin S16x1.rank)
  bcast_S16x1_S16x4096_0_1 : S16x1.BroadcastsInDim S16x4096 (![0, 1] : Fin 2 → Fin S16x4096.rank)
  shapeCasts_S16x4096_S65536 : S16x4096.ShapeCasts S65536
  bcast_S_S65536 : S_.BroadcastsInDim S65536 (![] : Fin 0 → Fin S65536.rank)
  bcast_S65536_S65536x1_0 : S65536.BroadcastsInDim S65536x1 (![0] : Fin 1 → Fin S65536x1.rank)
  shapeCasts_S65536_S16x4096 : S65536.ShapeCasts S16x4096
  bcast_S_S16x4096 : S_.BroadcastsInDim S16x4096 (![] : Fin 0 → Fin S16x4096.rank)
  shapeCasts_S16x4096_S16x4096x1 : S16x4096.ShapeCasts S16x4096x1
  shapeCasts_S16x4096_S16x4x1024 : S16x4096.ShapeCasts S16x4x1024
  reducesTo_S16x4x1024_S16x4_d2 : S16x4x1024.ReducesTo [2] S16x4
  h_S_ : 0 < S_.numel
  bcast_S_S4 : S_.BroadcastsInDim S4 (![] : Fin 0 → Fin S4.rank)
  bcast_S16x4_S16x1x4_0_2 : S16x4.BroadcastsInDim S16x1x4 (![0, 2] : Fin 2 → Fin S16x1x4.rank)
  bcast_S4_S1x4x1_1 : S4.BroadcastsInDim S1x4x1 (![1] : Fin 1 → Fin S1x4x1.rank)
  bcast_S16x1x4_S16x4x4_0_1_2 : S16x1x4.BroadcastsInDim S16x4x4 (![0, 1, 2] : Fin 3 → Fin S16x4x4.rank)
  bcast_S1x4x1_S16x4x4_0_1_2 : S1x4x1.BroadcastsInDim S16x4x4 (![0, 1, 2] : Fin 3 → Fin S16x4x4.rank)
  natLt_1_32 : 1 < 32
  shapeCasts_S16x4x4_S256 : S16x4x4.ShapeCasts S256
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  numel1_S1 : S1.numel = 1
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  iota_S1024x1024_d0_w32 : S1024x1024.Iotas .tc 32 [0]
  broadcasts_S1x1024_S1024x1024 : S1x1024.Broadcasts S1024x1024
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  bitsLt_bf16_f32 : FTy.bits .bf16 < FTy.bits .f32
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  broadcasts_S1024x1_S1024x768 : S1024x1.Broadcasts S1024x768
  shapeCasts_S1024x768_S1x1024x768 : S1024x768.ShapeCasts S1x1024x768
  scatter_S65536_S65536x1_S65536_n_0_0_1_wf : ScatterDims.WF S65536 S65536x1 S65536 [] [0] [0] 1
  dot_S1024x1024_S1024x768_S1024x768_1_0_0_1_n_n_wf : DotDims.WF S1024x1024 S1024x768 S1024x768 [1] [0] [0] [1] [] []
  hrank0 : 0 < grid0.rank
  k0_off1_inb : ∀ i : grid0.Coords, ∀ a, (k0_off1 i) a + S1.size a ≤ S256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S16x4096x768.size a
  hwx0_0 : ∀ i : grid0.Coords, EltTy.bits .f32 = 32 ∨ (Rect.block (s := S16x4096x768) S1x1024x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024.size a ≤ S16x1x4096.size a
  hwx0_1 : ∀ i : grid0.Coords, EltTy.bits .i32 = 32 ∨ (Rect.block (s := S16x1x4096) S1x1x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S16x4096x1.size a
  hwx0_2 : ∀ i : grid0.Coords, EltTy.bits .f32 = 32 ∨ (Rect.block (s := S16x4096x1) S1x1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x768.size a ≤ S16x4096x768.size a
  hwx0_3 : ∀ i : grid0.Coords, EltTy.bits .f32 = 32 ∨ (Rect.block (s := S16x4096x768) S1x1024x768.size (cc0_transform_3 i) (hinb0_3 i)).WholeWords (EltTy.packing .f32)

variable [Facts₀]

def scatter_S65536_S65536x1_S65536_n_0_0_1 : ScatterDims S65536 S65536x1 S65536 where
  updateWindowDims := []
  insertedWindowDims := [0]
  scatterDimsToOperandDims := [0]
  indexVectorDim := 1
  wf := scatter_S65536_S65536x1_S65536_n_0_0_1_wf
def dot_S1024x1024_S1024x768_S1024x768_1_0_0_1_n_n : DotDims S1024x1024 S1024x768 S1024x768 where
  lhsContracting := [1]
  rhsContracting := [0]
  lhsNonContracting := [0]
  rhsNonContracting := [1]
  lhsBatch := []
  rhsBatch := []
  wf := dot_S1024x1024_S1024x768_S1024x768_1_0_0_1_n_n_wf

abbrev spec0_0 : Pipeline.WinSpec sig grid0.rank :=
  Pipeline.WinSpec.ofSpec (Memref.whole main_arg0) S1x1024x768.size reads0_0 false false 2 stage0_0 sem0_0 nbuf0_0 hstage0_0

abbrev spec0_1 : Pipeline.WinSpec sig grid0.rank :=
  Pipeline.WinSpec.ofSpec (Memref.whole main_v0) S1x1x1024.size reads0_1 false false 2 stage0_1 sem0_1 nbuf0_1 hstage0_1

abbrev spec0_2 : Pipeline.WinSpec sig grid0.rank :=
  Pipeline.WinSpec.ofSpec (Memref.whole main_v19) S1x1024x1.size reads0_2 false false 2 stage0_2 sem0_2 nbuf0_2 hstage0_2

abbrev spec0_3 : Pipeline.WinSpec sig grid0.rank :=
  Pipeline.WinSpec.ofSpec (Memref.whole main_v41) S1x1024x768.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 | 2 => cc0_transform_2 | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | ⟨_ + 4, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | ⟨_ + 4, h⟩ => absurd h (Nat.not_lt.2 (Nat.le_add_left _ _))
abbrev idle0 : Fin 4 → grid0.Coords → Bool := fun | 0 => fun _ => false | 1 => fun _ => false | 2 => fun _ => false | 3 => fun i => !(k0_cond3 i == 1#1) | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S16x4096x768 : Shape := ⟨3, ![16, 4096, 768]⟩
abbrev S16x4096 : Shape := ⟨2, ![16, 4096]⟩
abbrev S16 : Shape := ⟨1, ![16]⟩
abbrev S16x1 : Shape := ⟨2, ![16, 1]⟩
abbrev S_ : Shape := ⟨0, ![]⟩
abbrev S65536 : Shape := ⟨1, ![65536]⟩
abbrev S65536x768 : Shape := ⟨2, ![65536, 768]⟩
abbrev S65536x1 : Shape := ⟨2, ![65536, 1]⟩

abbrev nBuf : Space → Nat
  | .hbm => 32
  | .vmem => 0
  | .smem => 0
  | _ => 0

abbrev bufTy : (tb : Table) → Fin (tcTables nBuf tb) → BufTy
  | .hbm, ⟨0, _⟩ => ⟨S16x4096x768, .f32⟩
  | .hbm, ⟨1, _⟩ => ⟨S16x4096, .i32⟩
  | .hbm, ⟨2, _⟩ => ⟨S16, .i32⟩
  | .hbm, ⟨3, _⟩ => ⟨S16x1, .i32⟩
  | .hbm, ⟨4, _⟩ => ⟨S_, .i32⟩
  | .hbm, ⟨5, _⟩ => ⟨S16x1, .i32⟩
  | .hbm, ⟨6, _⟩ => ⟨S16x1, .i32⟩
  | .hbm, ⟨7, _⟩ => ⟨S16x4096, .i32⟩
  | .hbm, ⟨8, _⟩ => ⟨S16x4096, .i32⟩
  | .hbm, ⟨9, _⟩ => ⟨S65536, .i32⟩
  | .hbm, ⟨10, _⟩ => ⟨S65536x768, .f32⟩
  | .hbm, ⟨11, _⟩ => ⟨S_, .f32⟩
  | .hbm, ⟨12, _⟩ => ⟨S65536x768, .f32⟩
  | .hbm, ⟨13, _⟩ => ⟨S65536x1, .i32⟩
  | .hbm, ⟨14, _⟩ => ⟨S65536x768, .f32⟩
  | .hbm, ⟨15, _⟩ => ⟨S_, .f32⟩
  | .hbm, ⟨16, _⟩ => ⟨S65536, .f32⟩
  | .hbm, ⟨17, _⟩ => ⟨S_, .f32⟩
  | .hbm, ⟨18, _⟩ => ⟨S65536, .f32⟩
  | .hbm, ⟨19, _⟩ => ⟨S65536x1, .i32⟩
  | .hbm, ⟨20, _⟩ => ⟨S65536, .f32⟩
  | .hbm, ⟨21, _⟩ => ⟨S_, .f32⟩
  | .hbm, ⟨22, _⟩ => ⟨S65536, .f32⟩
  | .hbm, ⟨23, _⟩ => ⟨S65536, .f32⟩
  | .hbm, ⟨24, _⟩ => ⟨S65536x1, .f32⟩
  | .hbm, ⟨25, _⟩ => ⟨S65536x768, .f32⟩
  | .hbm, ⟨26, _⟩ => ⟨S65536x768, .f32⟩
  | .hbm, ⟨27, _⟩ => ⟨S16x4096x768, .f32⟩
  | .hbm, ⟨28, _⟩ => ⟨S_, .f32⟩
  | .hbm, ⟨29, _⟩ => ⟨S65536, .f32⟩
  | .hbm, ⟨30, _⟩ => ⟨S65536, .i1⟩
  | .hbm, ⟨31, _⟩ => ⟨S16x4096, .i1⟩
  | _, _ => ⟨S16x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  bcast_S16_S16x1_0 : S16.BroadcastsInDim S16x1 (![0] : Fin 1 → Fin S16x1.rank)
  bcast_S_S16x1 : S_.BroadcastsInDim S16x1 (![] : Fin 0 → Fin S16x1.rank)
  bcast_S16x1_S16x4096_0_1 : S16x1.BroadcastsInDim S16x4096 (![0, 1] : Fin 2 → Fin S16x4096.rank)
  shapeCasts_S16x4096_S65536 : S16x4096.ShapeCasts S65536
  shapeCasts_S16x4096x768_S65536x768 : S16x4096x768.ShapeCasts S65536x768
  bcast_S_S65536x768 : S_.BroadcastsInDim S65536x768 (![] : Fin 0 → Fin S65536x768.rank)
  bcast_S65536_S65536x1_0 : S65536.BroadcastsInDim S65536x1 (![0] : Fin 1 → Fin S65536x1.rank)
  bcast_S_S65536 : S_.BroadcastsInDim S65536 (![] : Fin 0 → Fin S65536.rank)
  bcast_S65536x1_S65536x768_0_1 : S65536x1.BroadcastsInDim S65536x768 (![0, 1] : Fin 2 → Fin S65536x768.rank)
  shapeCasts_S65536x768_S16x4096x768 : S65536x768.ShapeCasts S16x4096x768
  shapeCasts_S65536_S16x4096 : S65536.ShapeCasts S16x4096
  scatter_S65536x768_S65536x1_S65536x768_1_0_0_1_wf : ScatterDims.WF S65536x768 S65536x1 S65536x768 [1] [0] [0] 1
  scatter_S65536_S65536x1_S65536_n_0_0_1_wf : ScatterDims.WF S65536 S65536x1 S65536 [] [0] [0] 1

variable [Facts₀]

def scatter_S65536x768_S65536x1_S65536x768_1_0_0_1 : ScatterDims S65536x768 S65536x1 S65536x768 where
  updateWindowDims := [1]
  insertedWindowDims := [0]
  scatterDimsToOperandDims := [0]
  indexVectorDim := 1
  wf := scatter_S65536x768_S65536x1_S65536x768_1_0_0_1_wf
def scatter_S65536_S65536x1_S65536_n_0_0_1 : ScatterDims S65536 S65536x1 S65536 where
  updateWindowDims := []
  insertedWindowDims := [0]
  scatterDimsToOperandDims := [0]
  indexVectorDim := 1
  wf := scatter_S65536_S65536x1_S65536_n_0_0_1_wf

class Facts : Prop extends Facts₀ where

variable [Facts]
-- ==== Proof.LibSelfLoopSum.lean ====
/-
  A degree-normalised neighbourhood sum with a self-loop, in its two arrangements.

  Node `n` has degree `deg n = (number of messages arriving at n) + 1` and weight `a = deg^(-1/2)`.  One
  arrangement scales every arriving message `v j` by the product of its source's weight `w j` and its
  destination's weight, sums, and adds the node's own value times `1 / deg`; the other scales messages by the
  source's weight only, adds the node's own value scaled by its weight, and multiplies the whole by the
  destination's weight afterwards.  On the extended reals the two agree for summands of any kind, infinite ones
  included, because the weight is a nonnegative real: such a factor distributes over sums, and
  `deg^(-1/2) · deg^(-1/2) = 1 / deg` for a real `deg > 0`.
-/
import Idealize.ShloMosaic.PureOps.Ideal
import Idealize.ShloMosaic.PureOps.Ideal.Laws

noncomputable section

namespace Idealize.ShloMosaic.SelfLoopSum

open Idealize.ShloMosaic

/-- The binary32 word `0x3F800000` denotes the real `1`. -/
theorem ofBits_one_f32 : Ideal.ofBits .f32 0x3F800000#32 = 1 := by
  simp [Ideal.ofBits, Ideal.ieee, -EReal.coe_mul]
  norm_num

/-- A sum of ones is the number of its terms. -/
theorem sum_ones {ι : Type*} (s : Finset ι) : ∑ _j ∈ s, (1 : EReal) = ((s.card : ℝ) : EReal) := by
  classical
  induction s using Finset.induction_on with
  | empty => simp
  | insert j s hj ih =>
    rw [Finset.sum_insert hj, ih, Finset.card_insert_of_notMem hj]
    push_cast
    rw [add_comm]

/-- Counting arrivals from zero and adding one gives a real degree, at least one. -/
theorem degree_eq {ι : Type*} (s : Finset ι) :
    (0 + ∑ _j ∈ s, (1 : EReal)) + 1 = (((s.card : ℝ) + 1 : ℝ) : EReal) := by
  rw [zero_add, sum_ones]; rfl

/-- At a positive real `r` the weight `r^(-1/2)` is a nonnegative real, and its square is `1 / r`. -/
theorem rsqrt_pos (r : ℝ) (hr : 0 < r) :
    0 ≤ Ideal.rsqrt (r : EReal) ∧ Ideal.rsqrt (r : EReal) ≠ ⊤
      ∧ Ideal.rsqrt (r : EReal) * Ideal.rsqrt (r : EReal) = Ideal.div 1 (r : EReal) := by
  have h2 : ¬ r < 0 := not_lt.mpr hr.le
  have h3 : r ≠ 0 := hr.ne'
  have e : Ideal.rsqrt (r : EReal) = (((Real.sqrt r)⁻¹ : ℝ) : EReal) := by
    rw [Ideal.rsqrt_coe, if_neg h2, if_neg h3]
  rw [e]
  refine ⟨?_, EReal.coe_ne_top _, ?_⟩
  · exact_mod_cast inv_nonneg.mpr (Real.sqrt_nonneg r)
  · rw [Ideal.div_coe h3, one_mul, ← EReal.coe_mul, ← mul_inv, Real.mul_self_sqrt hr.le, one_div]

/-- The two arrangements agree: `a` the destination's weight (nonnegative, finite), `v j` message `j`'s
    payload, `w j` its source's weight, `wd j` its destination's weight (which is `a` for every message
    of this destination), `x` the node's own value, `q = a · a` the self-loop's weight, `b` the bias. -/
theorem scaled_eq {ι : Type*} (s : Finset ι) (a : EReal) (h0 : 0 ≤ a) (ht : a ≠ ⊤) (v w wd : ι → EReal)
    (hwd : ∀ j ∈ s, wd j = a) (x q b : EReal) (hq : a * a = q) :
    a * ((0 + ∑ j ∈ s, v j * w j) + x * a) + b = ((0 + ∑ j ∈ s, v j * (w j * wd j)) + x * q) + b := by
  classical
  have hsum : a * ∑ j ∈ s, v j * w j = ∑ j ∈ s, v j * (w j * wd j) := by
    induction s using Finset.induction_on with
    | empty => simp
    | insert j s hj ih =>
      rw [Finset.sum_insert hj, Finset.sum_insert hj, EReal.left_distrib_of_nonneg_of_ne_top h0 ht,
        ih (fun k hk => hwd k (Finset.mem_insert_of_mem hk)), hwd j (Finset.mem_insert_self j s),
        mul_comm a (v j * w j), mul_assoc]
  rw [zero_add, zero_add, EReal.left_distrib_of_nonneg_of_ne_top h0 ht, hsum, mul_left_comm a x a, hq]

end Idealize.ShloMosaic.SelfLoopSum

end
-- ==== Proof.SegMean.lean ====
/-
  Mean pooling of token rows into word slots, stated once on the extended reals.

  A batch of 16 sentences has 4096 tokens each; token `t` of sentence `b` carries a word identifier `ids (b, t)` and a
  row `emb (b, t, ·)` of 768 numbers.  Word slot `(b, w)` collects the rows of the tokens of sentence `b` whose
  identifier is `w`: their sum `wsum`, divided by the number of such tokens clipped below at one.  The count is taken
  as a parameter `cnt`, a flat array over the 65536 slots `b · 4096 + w`: both programs compute it by the same
  accumulation of ones, and nothing below depends on what it holds — the divisor `max cnt 1` is never zero.
-/
import Idealize.ShloMosaic.Lib.ValueIdx
import Idealize.ShloMosaic.PureOps.Ideal.Laws
import proofs.«126478_j41961830481956_2_alg».proof.Proof.LibSelfLoopSum

noncomputable section

namespace Cert.SegMean

open Idealize.ShloMosaic Idealize.ShloMosaic.ValueIdx

abbrev SEmb : Shape := ⟨3, ![16, 4096, 768]⟩
abbrev SIds : Shape := ⟨2, ![16, 4096]⟩
abbrev SFlat : Shape := ⟨1, ![65536]⟩

/-- Word slot `(b, w)` as the flat row `b · 4096 + w`. -/
def slot (b : Fin 16) (w : Fin 4096) : Fin 65536 := ⟨b.val * 4096 + w.val, by have := b.isLt; have := w.isLt; omega⟩

/-- The sum of the rows of sentence `b` whose token carries the word identifier `w`, in lane `d`. -/
def wsum (emb : SEmb.Idx → EReal) (ids : IVec SIds 32) (b : Fin 16) (w : Fin 4096) (d : Fin 768) : EReal :=
  ∑ t : Fin 4096, if ids (ix2 b t) = BitVec.ofNat 32 w.val then emb (ix3 b t d) else 0

/-- The pooled rows: the sum over the slot's tokens divided by their count clipped below at one. -/
def mean (emb : SEmb.Idx → EReal) (ids : IVec SIds 32) (cnt : SFlat.Idx → EReal) : SEmb.Idx → EReal :=
  fun i => Ideal.div (wsum emb ids (i 0) (i 1) (i 2))
    (max (cnt (ix1 (slot (i 0) (i 1)))) (Ideal.ofBits .f32 0x3F800000#32))

/-- Which slots hold at least one token: the count is above zero. -/
def occupied (cnt : SFlat.Idx → EReal) : SIds.Idx → BitVec 1 :=
  fun j => Ideal.cmp .ogt (cnt (ix1 (slot (j 0) (j 1)))) (Ideal.ofBits .f32 0x00000000#32)

/-- The word `0x3F800000` is the number one. -/
theorem one_word : Ideal.ofBits .f32 0x3F800000#32 = 1 := SelfLoopSum.ofBits_one_f32

/-- A count clipped below at one is not zero. -/
theorem clip_ne_zero (c : EReal) : max c (Ideal.ofBits .f32 0x3F800000#32) ≠ 0 := by
  rw [one_word]
  exact (lt_of_lt_of_le zero_lt_one (le_max_right c 1)).ne'

/-- Multiplying by the reciprocal of a nonzero extended real is dividing by it. -/
theorem mul_recip (x y : EReal) (hy : y ≠ 0) :
    x * Ideal.div (Ideal.ofBits .f32 0x3F800000#32) y = Ideal.div x y := by
  rw [one_word]
  unfold Ideal.div
  rw [if_neg hy, if_neg hy, one_mul]

end Cert.SegMean

end
-- ==== Proof.LibRowTake.lean ====
/-
  Row lookups and row accumulations with one integer index per row, read at an index.

  `x[idx]` for a table `x : [N]` or `x : [N, C]` and an index column `idx : [R, 1]` lowers to a gather whose start
  index is the column's entry, read signed and clamped into `[0, N - 1]`; the accumulation `.at[idx].add(u)` of
  rows `u : [R, C]` into `[N, C]` lowers to a scatter whose start index is the column's entry, read signed and NOT
  clamped: a row whose index falls outside `[0, N)` is dropped.  The lemmas below say which table element a result
  element reads, and which row an update row lands in.
-/
import Idealize.ShloMosaic.Lib.ValueIdx

noncomputable section

namespace Idealize.ShloMosaic.RowTake

open Idealize.ShloMosaic Idealize.ShloMosaic.ValueIdx

/-- A signed integer clamped into the rows `[0, N - 1]` of a table with `N > 0` rows. -/
def clampRow (N : Nat) (hN : 0 < N) (v : Int) : Fin N := ⟨min v.toNat (N - 1), by omega⟩

/-- An integer that already is a row is its own clamp. -/
theorem clampRow_of_eq {N : Nat} (hN : 0 < N) (v : Int) (r : Fin N) (h : v = (r.val : Int)) : clampRow N hN v = r := by
  refine Fin.ext ?_
  show min v.toNat (N - 1) = r.val
  have := r.isLt
  subst h
  rw [Int.toNat_natCast]
  omega

/-! ## A flat table `[N]` looked up at a column `[R, 1]` of indices -/

/-- The dimension numbers of `x[idx]` for `x : [N]`, `idx : [R, 1]`, result `[R]`. -/
abbrev flatDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Result element `e` reads the table at the clamp of the column's entry `e`. -/
theorem flat_operandIdx {N R w : Nat} (hN : 0 < N)
    (wf : GatherDims.WF ⟨1, ![N]⟩ ⟨2, ![R, 1]⟩ ⟨1, ![R]⟩ [] [0] [] [0] [] 1 ![1])
    (idx : IVec ⟨2, ![R, 1]⟩ w) (e : Fin R) :
    (flatDims N R wf).operandIdx (ix1 e) idx = ix1 (clampRow N hN (idx (ix2 e (0 : Fin 1))).toInt) := by
  funext a
  obtain rfl : a = 0 := Subsingleton.elim _ _
  refine Fin.ext ?_
  show (flatDims N R wf).start (ix1 e) idx 0 + (flatDims N R wf).batchCoord (ix1 e) 0
    + (flatDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N R wf).startIndexMap from List.mem_singleton.mpr rfl)]
  have hsi : (flatDims N R wf).siIdx (ix1 e) ⟨List.idxOf (0 : Fin 1) (flatDims N R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## A table of rows `[N, C]` looked up at a column `[R, 1]` of indices -/

/-- The dimension numbers of `x[idx]` for `x : [N, C]`, `idx : [R, 1]`, result `[R, C]`. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- On the row axis the operand index is the clamp of the column's entry. -/
theorem row_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (e : Fin R) (c : Fin C) :
    ((rowDims N C R wf).operandIdx (ix2 e c) idx (0 : Fin 2)).val = (clampRow N hN (idx (ix2 e (0 : Fin 1))).toInt).val := by
  show (rowDims N C R wf).start (ix2 e c) idx (0 : Fin 2) + (rowDims N C R wf).batchCoord (ix2 e c) (0 : Fin 2)
    + (rowDims N C R wf).offCoord (ix2 e c) (0 : Fin 2) = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N C R wf).startIndexMap from List.mem_singleton.mpr rfl)]
  have hsi : (rowDims N C R wf).siIdx (ix2 e c) ⟨List.idxOf (0 : Fin 2) (rowDims N C R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the lane axis the operand index is the result's lane. -/
theorem row_operandIdx_lane {N C R w : Nat}
    (wf : GatherDims.WF ⟨2, ![N, C]⟩ ⟨2, ![R, 1]⟩ ⟨2, ![R, C]⟩ [1] [0] [] [0] [] 1 ![1, C])
    (idx : IVec ⟨2, ![R, 1]⟩ w) (e : Fin R) (c : Fin C) :
    ((rowDims N C R wf).operandIdx (ix2 e c) idx (1 : Fin 2)).val = c.val := by
  show (rowDims N C R wf).start (ix2 e c) idx (1 : Fin 2) + (rowDims N C R wf).batchCoord (ix2 e c) (1 : Fin 2)
    + (rowDims N C R wf).offCoord (ix2 e c) (1 : Fin 2) = _
  have h10 : (1 : Fin 2) ∉ ([0] : List (Fin 2)) := by decide
  have hs : (rowDims N C R wf).start (ix2 e c) idx (1 : Fin 2) = 0 := by
    unfold GatherDims.start
    rw [dif_neg (show (1 : Fin 2) ∉ (rowDims N C R wf).startIndexMap from h10)]
  have ho : (rowDims N C R wf).offCoord (ix2 e c) (1 : Fin 2) = c.val := by
    unfold GatherDims.offCoord
    rw [dif_pos ((GatherDims.mem_sKept _ _).mpr ⟨h10, List.not_mem_nil⟩)]
    rfl
  rw [GatherDims.batchCoord_eq_zero _ _ _ List.not_mem_nil, hs, ho]; omega

/-- Result element `(e, c)` reads the table's row at the clamp of the column's entry `e`, in lane `c`. -/
theorem row_operandIdx {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (e : Fin R) (c : Fin C) :
    (rowDims N C R wf).operandIdx (ix2 e c) idx = ix2 (clampRow N hN (idx (ix2 e (0 : Fin 1))).toInt) c := by
  funext a
  refine Fin.ext ?_
  match a with
  | ⟨0, _⟩ => exact row_operandIdx_row hN wf idx e c
  | ⟨1, _⟩ => exact row_operandIdx_lane wf idx e c

/-! ## Rows `[R, C]` accumulated into a table `[N, C]` at a column `[R, 1]` of indices -/

/-- The dimension numbers of `x.at[idx].add(u)` for `x : [N, C]`, `idx : [R, 1]`, `u : [R, C]`. -/
abbrev rowScatterDims (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- An update element `(e, c)` that lands on table element `i` has the column's entry `e`, read signed, equal to
    `i`'s row: the row index is not clamped, and a row outside the table lands nowhere. -/
theorem rowScatter_row_of_some {N C R w : Nat}
    (wf : ScatterDims.WF ⟨2, ![N, C]⟩ ⟨2, ![R, 1]⟩ ⟨2, ![R, C]⟩ [1] [0] [0] 1)
    (idx : IVec ⟨2, ![R, 1]⟩ w) (e : Fin R) (c : Fin C) (i : (⟨2, ![N, C]⟩ : Shape).Idx)
    (h : (rowScatterDims N C R wf).resultIdx? (ix2 e c) idx = some i) :
    (idx (ix2 e (0 : Fin 1))).toInt = ((i 0).val : Int) := by
  have hs : (rowScatterDims N C R wf).start (ix2 e c) idx (0 : Fin 2) = (idx (ix2 e (0 : Fin 1))).toInt := by
    unfold ScatterDims.start
    rw [dif_pos (show (0 : Fin 2) ∈ (rowScatterDims N C R wf).scatterDimsToOperandDims from List.mem_singleton.mpr rfl)]
    have hsi : (rowScatterDims N C R wf).siIdx (ix2 e c) ⟨List.idxOf (0 : Fin 2) (rowScatterDims N C R wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw : (rowScatterDims N C R wf).window (ix2 e c) (0 : Fin 2) = 0 := by
    unfold ScatterDims.window
    rw [dif_neg (show (0 : Fin 2) ∉ (rowScatterDims N C R wf).sKept from
      (by decide : (0 : Fin 2) ∉ (List.finRange 2).filter (fun a => a ∉ ([0] : List (Fin 2)))))]
  unfold ScatterDims.resultIdx? at h
  split at h
  · rename_i hin
    have h0 := congrArg (fun f => (f (0 : Fin 2)).val) (Option.some.inj h)
    have hb := hin (0 : Fin 2)
    rw [hs, hw] at hb
    simp only [hs, hw] at h0
    have h0' : ((idx (ix2 e (0 : Fin 1))).toInt + ((0 : Nat) : Int)).toNat = (i 0).val := h0
    omega
  · exact absurd h (by simp)

end Idealize.ShloMosaic.RowTake

end
-- ==== Proof.LibRowScatter.lean ====
/-
  Rows accumulated into a table at one integer index per row: exactly where an update element lands.

  The accumulation `x.at[idx].add(u)` of rows `u : [R, C]` into a table `x : [N, C]` at an index column
  `idx : [R, 1]` sends update element `(e, c)` to table element `(n, c)`, where `n` is the column's entry `e` read as a
  signed integer, when `0 ≤ n < N`, and nowhere otherwise.  The lemmas below read the start and window parts of the
  result index on both axes and state the landing condition as an equivalence.
-/
import Idealize.ShloMosaic.Lib.ValueIdx
import proofs.«126478_j41961830481956_2_alg».proof.Proof.LibRowTake

noncomputable section

namespace Idealize.ShloMosaic.RowScatter

open Idealize.ShloMosaic Idealize.ShloMosaic.ValueIdx Idealize.ShloMosaic.RowTake

variable {N C R w : Nat}

/-- On the row axis the window starts at the column's entry, read signed. -/
theorem start_row (wf : ScatterDims.WF ⟨2, ![N, C]⟩ ⟨2, ![R, 1]⟩ ⟨2, ![R, C]⟩ [1] [0] [0] 1)
    (idx : IVec ⟨2, ![R, 1]⟩ w) (e : Fin R) (c : Fin C) :
    (rowScatterDims N C R wf).start (ix2 e c) idx (0 : Fin 2) = (idx (ix2 e (0 : Fin 1))).toInt := by
  unfold ScatterDims.start
  rw [dif_pos (show (0 : Fin 2) ∈ (rowScatterDims N C R wf).scatterDimsToOperandDims from List.mem_singleton.mpr rfl)]
  have hsi : (rowScatterDims N C R wf).siIdx (ix2 e c) ⟨List.idxOf (0 : Fin 2) (rowScatterDims N C R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the lane axis the window starts at zero: the index column names rows only. -/
theorem start_lane (wf : ScatterDims.WF ⟨2, ![N, C]⟩ ⟨2, ![R, 1]⟩ ⟨2, ![R, C]⟩ [1] [0] [0] 1)
    (idx : IVec ⟨2, ![R, 1]⟩ w) (e : Fin R) (c : Fin C) :
    (rowScatterDims N C R wf).start (ix2 e c) idx (1 : Fin 2) = 0 := by
  unfold ScatterDims.start
  rw [dif_neg (show (1 : Fin 2) ∉ (rowScatterDims N C R wf).scatterDimsToOperandDims from
    (by decide : (1 : Fin 2) ∉ ([0] : List (Fin 2))))]

/-- The row axis is inserted: the window coordinate there is zero. -/
theorem window_row (wf : ScatterDims.WF ⟨2, ![N, C]⟩ ⟨2, ![R, 1]⟩ ⟨2, ![R, C]⟩ [1] [0] [0] 1)
    (e : Fin R) (c : Fin C) :
    (rowScatterDims N C R wf).window (ix2 e c) (0 : Fin 2) = 0 := by
  unfold ScatterDims.window
  rw [dif_neg (show (0 : Fin 2) ∉ (rowScatterDims N C R wf).sKept from
    (by decide : (0 : Fin 2) ∉ (List.finRange 2).filter (fun a => a ∉ ([0] : List (Fin 2)))))]

/-- On the lane axis the window coordinate is the update's lane. -/
theorem window_lane (wf : ScatterDims.WF ⟨2, ![N, C]⟩ ⟨2, ![R, 1]⟩ ⟨2, ![R, C]⟩ [1] [0] [0] 1)
    (e : Fin R) (c : Fin C) :
    (rowScatterDims N C R wf).window (ix2 e c) (1 : Fin 2) = c.val := by
  unfold ScatterDims.window
  rw [dif_pos (show (1 : Fin 2) ∈ (rowScatterDims N C R wf).sKept from
    (by decide : (1 : Fin 2) ∈ (List.finRange 2).filter (fun a => a ∉ ([0] : List (Fin 2)))))]
  rfl

/-- Update element `(e, c)` lands on table element `i` exactly when the column's entry `e`, read signed, is `i`'s
    row and `c` is `i`'s lane. -/
theorem resultIdx?_eq_some_iff (wf : ScatterDims.WF ⟨2, ![N, C]⟩ ⟨2, ![R, 1]⟩ ⟨2, ![R, C]⟩ [1] [0] [0] 1)
    (idx : IVec ⟨2, ![R, 1]⟩ w) (e : Fin R) (c : Fin C) (i : (⟨2, ![N, C]⟩ : Shape).Idx) :
    (rowScatterDims N C R wf).resultIdx? (ix2 e c) idx = some i
      ↔ (idx (ix2 e (0 : Fin 1))).toInt = ((i 0).val : Int) ∧ c.val = (i 1).val := by
  have hs0 := start_row wf idx e c
  have hs1 := start_lane wf idx e c
  have hw0 := window_row (N := N) wf e c
  have hw1 := window_lane (N := N) wf e c
  have hi0 : (i 0).val < N := (i 0).isLt
  have hi1 : (i 1).val < C := (i 1).isLt
  have hc : c.val < C := c.isLt
  unfold ScatterDims.resultIdx?
  constructor
  · intro h
    split at h
    · have h0 := congrArg (fun f => (f (0 : Fin 2)).val) (Option.some.inj h)
      have h1 := congrArg (fun f => (f (1 : Fin 2)).val) (Option.some.inj h)
      rename_i hin
      have hb := hin (0 : Fin 2)
      rw [hs0, hw0] at hb
      simp only [hs0, hw0] at h0
      simp only [hs1, hw1] at h1
      have h0' : ((idx (ix2 e (0 : Fin 1))).toInt + ((0 : Nat) : Int)).toNat = (i 0).val := h0
      have h1' : ((0 : Int) + ((c.val : Nat) : Int)).toNat = (i 1).val := h1
      constructor <;> omega
    · exact absurd h (by simp)
  · rintro ⟨hr, hl⟩
    have hin0 : 0 ≤ (rowScatterDims N C R wf).start (ix2 e c) idx (0 : Fin 2) + ((rowScatterDims N C R wf).window (ix2 e c) (0 : Fin 2) : Int)
        ∧ (rowScatterDims N C R wf).start (ix2 e c) idx (0 : Fin 2) + ((rowScatterDims N C R wf).window (ix2 e c) (0 : Fin 2) : Int) < (N : Int) := by
      rw [hs0, hw0, hr]
      omega
    have hin1 : 0 ≤ (rowScatterDims N C R wf).start (ix2 e c) idx (1 : Fin 2) + ((rowScatterDims N C R wf).window (ix2 e c) (1 : Fin 2) : Int)
        ∧ (rowScatterDims N C R wf).start (ix2 e c) idx (1 : Fin 2) + ((rowScatterDims N C R wf).window (ix2 e c) (1 : Fin 2) : Int) < (C : Int) := by
      rw [hs1, hw1]
      omega
    have hin : ∀ a : Fin 2, 0 ≤ (rowScatterDims N C R wf).start (ix2 e c) idx a + ((rowScatterDims N C R wf).window (ix2 e c) a : Int)
        ∧ (rowScatterDims N C R wf).start (ix2 e c) idx a + ((rowScatterDims N C R wf).window (ix2 e c) a : Int)
          < ((⟨2, ![N, C]⟩ : Shape).size a : Int) := by
      intro a
      match a with
      | ⟨0, _⟩ => exact hin0
      | ⟨1, _⟩ => exact hin1
    rw [dif_pos hin]
    refine congrArg some (funext fun a => Fin.ext ?_)
    match a with
    | ⟨0, _⟩ =>
      show ((rowScatterDims N C R wf).start (ix2 e c) idx 0 + ((rowScatterDims N C R wf).window (ix2 e c) 0 : Int)).toNat = (i 0).val
      rw [hs0, hw0, hr]
      omega
    | ⟨1, _⟩ =>
      show ((rowScatterDims N C R wf).start (ix2 e c) idx 1 + ((rowScatterDims N C R wf).window (ix2 e c) 1 : Int)).toNat = (i 1).val
      rw [hs1, hw1]
      omega

end Idealize.ShloMosaic.RowScatter

end
-- ==== Proof.RefMean.lean ====
/-
  The reference program's pooled rows and occupancy mask are the specification's.

  The reference program flattens the token rows to `[65536, 768]`, gives token `t` of sentence `b` the flat slot
  `ids (b, t) + b · 4096` (a 32-bit sum), accumulates every row into its slot, and divides each slot's row by the slot's
  count clipped below at one.  When every identifier, read signed, lies in `[0, 4096)` the 32-bit sum does not wrap, so a
  token of sentence `b'` lands in slot `b · 4096 + w` exactly when `b' = b` and its identifier is `w`: the accumulated
  row is the specification's `wsum`, and the quotient its `mean`.  The occupancy mask compares the same count with zero.
-/
import proofs.«126478_j41961830481956_2_alg».proof.Proof.RefReadP
import proofs.«126478_j41961830481956_2_alg».proof.Proof.SegMean
import proofs.«126478_j41961830481956_2_alg».proof.Proof.LibRowScatter

noncomputable section

namespace Cert.RefMean

open Idealize.ShloMosaic Idealize.ShloMosaic.ValueIdx
open Cert.ReferenceIdeal Cert.ReferenceIdeal.ReadP Cert.SegMean

/-! ## Flat rows and their coordinates -/

/-- The flat rows `b · 4096 + t` are the pairs (sentence, position). -/
def rowEquiv : Fin 16 × Fin 4096 ≃ Fin 65536 where
  toFun p := slot p.1 p.2
  invFun e := (⟨e.val / 4096, by have := e.isLt; omega⟩, ⟨e.val % 4096, Nat.mod_lt _ (by decide)⟩)
  left_inv p := by
    obtain ⟨b, t⟩ := p
    have hb := b.isLt
    have ht := t.isLt
    refine Prod.ext (Fin.ext ?_) (Fin.ext ?_)
    · show (b.val * 4096 + t.val) / 4096 = b.val
      omega
    · show (b.val * 4096 + t.val) % 4096 = t.val
      omega
  right_inv e := by
    refine Fin.ext ?_
    show e.val / 4096 * 4096 + e.val % 4096 = e.val
    omega

/-- A sum over the flat rows is the double sum over sentences and positions. -/
theorem sum_rows {M : Type*} [AddCommMonoid M] (g : Fin 65536 → M) :
    ∑ e, g e = ∑ b : Fin 16, ∑ t : Fin 4096, g (slot b t) := by
  rw [← Equiv.sum_comp rowEquiv g, Fintype.sum_prod_type]
  rfl

/-- The flattened rows read the token rows: flat row `b · 4096 + t`, lane `d` is `emb (b, t, d)`. -/
theorem v7_apply (emb : FVec Ideal S16x4096x768 .f32) (b : Fin 16) (t : Fin 4096) (d : Fin 768) :
    val_main_v7 (F := Ideal) emb (ix2 (slot b t) d) = emb (ix3 b t d) := by
  rw [val_main_v7_apply]
  congr 1
  funext a
  refine Fin.ext ?_
  have hb := b.isLt
  have ht := t.isLt
  have hd := d.isLt
  match a with
  | ⟨0, _⟩ =>
    show ((b.val * 4096 + t.val) * 768 + d.val) / 3145728 = b.val
    omega
  | ⟨1, _⟩ =>
    show ((b.val * 4096 + t.val) * 768 + d.val) / 768 % 4096 = t.val
    omega
  | ⟨2, _⟩ =>
    show ((b.val * 4096 + t.val) * 768 + d.val) % 768 = d.val
    omega

/-- The index column at flat row `b · 4096 + t` is the 32-bit sum of the identifier and `b · 4096`. -/
theorem v9_apply (ids : IVec S16x4096 32) (b : Fin 16) (t : Fin 4096) :
    val_main_v9 (F := Ideal) ids (ix2 (slot b t) (0 : Fin 1))
      = IntOp.addi (ids (ix2 b t)) (IntOp.muli (BitVec.ofNat 32 b.val) 4096#32) := by
  have h1 : idx_main_v6 (idx_main_v9 (ix2 (slot b t) (0 : Fin 1))) = ix2 b t := by
    funext a
    refine Fin.ext ?_
    have hb := b.isLt
    have ht := t.isLt
    match a with
    | ⟨0, _⟩ =>
      show (b.val * 4096 + t.val) / 4096 = b.val
      omega
    | ⟨1, _⟩ =>
      show (b.val * 4096 + t.val) % 4096 = t.val
      omega
  rw [val_main_v9_apply, val_main_v6_apply, h1, val_main_v5_apply, val_main_v4_apply, val_main_v3_apply,
    val_main_v1_apply, val_main_v2_apply, val_main_v0_apply, val_main_c_apply]

/-! ## The slot of a token, read signed -/

/-- An identifier in `[0, 4096)` plus `b · 4096` does not wrap: read signed, the 32-bit sum is the sum of naturals. -/
theorem seg_toInt (x : BitVec 32) (b : Fin 16) (hx : 0 ≤ x.toInt ∧ x.toInt < 4096) :
    x.toNat < 4096 ∧
      (IntOp.addi x (IntOp.muli (BitVec.ofNat 32 b.val) 4096#32)).toInt = ((x.toNat + b.val * 4096 : Nat) : Int) := by
  have hb := b.isLt
  obtain ⟨h0, h1⟩ := hx
  have hx : x.toNat < 4096 := by
    rw [BitVec.toInt_eq_toNat_cond] at h0 h1
    have := x.isLt
    split at h0 <;> omega
  refine ⟨hx, ?_⟩
  unfold IntOp.addi IntOp.muli
  have hs : (x + BitVec.ofNat 32 b.val * 4096#32).toNat = x.toNat + b.val * 4096 := by
    rw [BitVec.toNat_add, BitVec.toNat_mul, BitVec.toNat_ofNat]
    show (x.toNat + b.val % 2 ^ 32 * 4096 % 2 ^ 32) % 2 ^ 32 = x.toNat + b.val * 4096
    omega
  rw [BitVec.toInt_eq_toNat_of_lt (by rw [hs]; omega), hs]

/-- A token of sentence `b'` whose identifier `x` lies in `[0, 4096)` has slot `b · 4096 + w` exactly when `b' = b`
    and `x` is the word `w`. -/
theorem seg_eq_slot_iff (x : BitVec 32) (b' b : Fin 16) (w : Fin 4096) (hx : 0 ≤ x.toInt ∧ x.toInt < 4096) :
    (IntOp.addi x (IntOp.muli (BitVec.ofNat 32 b'.val) 4096#32)).toInt = (((slot b w).val : Nat) : Int)
      ↔ b' = b ∧ x = BitVec.ofNat 32 w.val := by
  obtain ⟨hlt, hs⟩ := seg_toInt x b' hx
  rw [hs]
  have hw := w.isLt
  have hb := b.isLt
  have hb' := b'.isLt
  have hx32 : x = BitVec.ofNat 32 w.val ↔ x.toNat = w.val := by
    rw [BitVec.toNat_eq, BitVec.toNat_ofNat]
    constructor <;> intro h <;> omega
  rw [hx32, Fin.ext_iff]
  show ((x.toNat + b'.val * 4096 : Nat) : Int) = ((b.val * 4096 + w.val : Nat) : Int) ↔ _
  constructor
  · intro h
    omega
  · rintro ⟨h1, h2⟩
    omega

/-! ## The accumulated rows -/

/-- The program's dimension numbers of the row accumulation are the general ones for rows at an index column. -/
theorem scatter_eq :
    scatter_S65536x768_S65536x1_S65536x768_1_0_0_1
      = RowTake.rowScatterDims 65536 768 65536 Facts₀.scatter_S65536x768_S65536x1_S65536x768_1_0_0_1_wf := rfl

/-- The accumulated row of slot `(b, w)`, lane `d`, is the sum of the rows of sentence `b` carrying the word `w`. -/
theorem v10_apply (emb : FVec Ideal S16x4096x768 .f32) (ids : IVec S16x4096 32)
    (hr : ∀ (b : Fin 16) (t : Fin 4096), 0 ≤ (ids (ix2 b t)).toInt ∧ (ids (ix2 b t)).toInt < 4096)
    (b : Fin 16) (w : Fin 4096) (d : Fin 768) :
    val_main_v10 (F := Ideal) emb ids (ix2 (slot b w) d) = wsum emb ids b w d := by
  unfold val_main_v10 Host.scatterAdd
  simp only [Ideal.hostScatterAdd_def]
  unfold Ideal.hostScatterAdd
  rw [val_main_v8_apply, val_main_cst_apply]
  show Ideal.ofBits .f32 0x00000000#32 + _ = _
  rw [Ideal.ofBits_zero_f32, zero_add, Finset.sum_filter, sum_idx2, sum_rows]
  unfold wsum
  -- every update element is read by its coordinates: sentence `b'`, position `t`, lane `c`
  have hterm : ∀ (b' : Fin 16) (t : Fin 4096) (c : Fin 768),
      (if scatter_S65536x768_S65536x1_S65536x768_1_0_0_1.resultIdx? (ix2 (slot b' t) c) (val_main_v9 (F := Ideal) ids)
            = some (ix2 (slot b w) d)
        then val_main_v7 (F := Ideal) emb (ix2 (slot b' t) c) else 0)
      = if c = d then (if b' = b ∧ ids (ix2 b' t) = BitVec.ofNat 32 w.val then emb (ix3 b' t c) else 0) else 0 := by
    intro b' t c
    rw [scatter_eq, v7_apply]
    have hiff := RowScatter.resultIdx?_eq_some_iff Facts₀.scatter_S65536x768_S65536x1_S65536x768_1_0_0_1_wf
      (val_main_v9 (F := Ideal) ids) (slot b' t) c (ix2 (slot b w) d)
    rw [v9_apply, seg_eq_slot_iff _ b' b w (hr b' t)] at hiff
    by_cases hc : c = d
    · rw [if_pos hc]
      by_cases hq : b' = b ∧ ids (ix2 b' t) = BitVec.ofNat 32 w.val
      · rw [if_pos hq, if_pos (hiff.2 ⟨hq, congrArg Fin.val hc⟩)]
      · rw [if_neg hq, if_neg (fun h => hq (hiff.1 h).1)]
    · rw [if_neg hc, if_neg (fun h => hc (Fin.ext (hiff.1 h).2))]
  simp only [hterm]
  -- the lane sum keeps lane `d`, the sentence sum keeps sentence `b`
  simp only [Finset.sum_ite_eq', Finset.mem_univ, if_true]
  rw [Finset.sum_eq_single b]
  · refine Finset.sum_congr rfl fun t _ => ?_
    by_cases hq : ids (ix2 b t) = BitVec.ofNat 32 w.val
    · rw [if_pos hq, if_pos ⟨rfl, hq⟩]
    · rw [if_neg hq, if_neg (fun h => hq h.2)]
  · intro b' _ hne
    exact Finset.sum_eq_zero fun t _ => if_neg (fun h => hne h.1)
  · intro h
    exact absurd (Finset.mem_univ b) h

/-! ## The two results -/

/-- The reference's pooled rows are the specification's mean over the reference's own count. -/
theorem v20_eq (emb : FVec Ideal S16x4096x768 .f32) (ids : IVec S16x4096 32)
    (hr : ∀ (b : Fin 16) (t : Fin 4096), 0 ≤ (ids (ix2 b t)).toInt ∧ (ids (ix2 b t)).toInt < 4096) :
    val_main_v20 (F := Ideal) emb ids = mean emb ids (val_main_v14 (F := Ideal) ids) := by
  funext i
  obtain ⟨b, w, d, rfl⟩ : ∃ b w d, i = ix3 b w d := ⟨i 0, i 1, i 2, eq_ix3 i⟩
  have h20 : idx_main_v20 (ix3 b w d) = ix2 (slot b w) d := by
    funext a
    refine Fin.ext ?_
    have hb := b.isLt
    have hw := w.isLt
    have hd := d.isLt
    match a with
    | ⟨0, _⟩ =>
      show ((b.val * 4096 + w.val) * 768 + d.val) / 768 = b.val * 4096 + w.val
      omega
    | ⟨1, _⟩ =>
      show ((b.val * 4096 + w.val) * 768 + d.val) % 768 = d.val
      omega
  have h17 : idx_main_v17 (idx_main_v18 (ix2 (slot b w) d)) = ix1 (slot b w) := by
    funext a
    match a with
    | ⟨0, _⟩ => rfl
  rw [val_main_v20_apply, h20, val_main_v19_apply, val_main_v18_apply, val_main_v17_apply, h17, val_main_v16_apply,
    val_main_v15_apply, val_main_cst_2_apply, v10_apply emb ids hr]
  rfl

/-- The reference's occupancy mask is the specification's over the reference's own count. -/
theorem v23_eq (ids : IVec S16x4096 32) :
    val_main_v23 (F := Ideal) ids = occupied (val_main_v14 (F := Ideal) ids) := by
  funext j
  obtain ⟨b, w, rfl⟩ : ∃ b w, j = ix2 b w := ⟨j 0, j 1, eq_ix2 j⟩
  have h23 : idx_main_v23 (ix2 b w) = ix1 (slot b w) := by
    funext a
    match a with
    | ⟨0, _⟩ => rfl
  rw [val_main_v23_apply, h23, val_main_v22_apply, val_main_v21_apply, val_main_cst_3_apply]
  rfl

end Cert.RefMean

end
-- ==== Proof.PreRange.lean ====
/-
  The precondition, decoded: every word identifier lies in the slot range.

  The precondition function is the conjunction of two all-reductions; the second one says that every identifier
  `ids (b, t)`, read signed, is at least 0 and below 4096.  Read back at one index this is the bound the pooling
  argument needs.
-/
import proofs.«126478_j41961830481956_2_alg».proof.Proof.Gen.Pre_finite_inputs
import Idealize.ShloMosaic.Lib.ValueIdx
import Idealize.ShloMosaic.Lib.ReduceAll
import Idealize.ShloMosaic.PureOps.Ideal

namespace Cert.PreRange

open Idealize.ShloMosaic Idealize.ShloMosaic.ValueIdx

/-- The scalar shape has one index. -/
instance : Subsingleton Cert.Pre_finite_inputs.S_.Idx := ⟨fun _ _ => funext fun d => d.elim0⟩

/-- A word that tests signed at least 0 and signed below 4096 reads, signed, in `[0, 4096)`. -/
theorem toInt_range (w : BitVec 32) (h0 : IntOp.cmpi .sge w 0#32 = 1#1) (h1 : IntOp.cmpi .slt w 4096#32 = 1#1) :
    0 ≤ w.toInt ∧ w.toInt < 4096 := by
  have a := IntOp.cmpi_sge.1 h0
  have c := IntOp.cmpi_slt.1 h1
  rw [show (0#32 : BitVec 32).toInt = 0 from by decide] at a
  rw [show (4096#32 : BitVec 32).toInt = 4096 from by decide] at c
  exact ⟨a, c⟩

/-- When the precondition function returns 1, every identifier, read signed, is in `[0, 4096)`. -/
theorem range_of_pre [Cert.Pre_finite_inputs.Facts] (emb : FVec Ideal Cert.Pre_finite_inputs.S16x4096x768 .f32)
    (ids : IVec Cert.Pre_finite_inputs.S16x4096 32)
    (h : Cert.Pre_finite_inputs.fn (F := Ideal) emb ids = fun _ => 1#1) :
    ∀ (b : Fin 16) (t : Fin 4096), 0 ≤ (ids (ix2 b t)).toInt ∧ (ids (ix2 b t)).toInt < 4096 := by
  intro b t
  have e := congrFun h ix0
  unfold Cert.Pre_finite_inputs.fn at e
  dsimp only at e
  -- the result is the conjunction of the two all-reductions; keep the second
  have e' : IntOp.andi _ _ = 1#1 := e
  obtain ⟨-, e9⟩ := IntOp.andi_eq_one.1 e'
  -- an all-reduction that is 1 had a 1 at every index
  have el := Host.reduce_andi_all _ _ _ _ ix0 e9 (ix2 b t)
  have el' : IntOp.andi (IntOp.cmpi .sge (ids (ix2 b t)) 0#32) (IntOp.cmpi .slt (ids (ix2 b t)) 4096#32) = 1#1 := el
  obtain ⟨h0, h1⟩ := IntOp.andi_eq_one.1 el'
  exact toInt_range _ h0 h1

end Cert.PreRange
-- ==== Proof.KernelCases.lean ====
/-
  What the pooling kernel's body leaves behind at one grid point, case by case.

  The body keeps a running block `acc` of 1024 word slots by 768 lanes across the four token blocks of a sentence.  At the
  first token block it stores zeros; whenever the overlap word of the point is not zero it adds the block product
  `part` (the indicator matrix "slot p carries the identifier of token j" times the token rows) to `acc`; at the
  last token block it writes `acc` times the column of reciprocal counts to the output block.  Each lemma below says
  what one case of these three conditionals leaves in the running block, or writes to the output block, as the printed
  arithmetic `k0_pay1` (the zeros), `k0_pay2` (running block plus product) and `k0_pay3` (times the reciprocal counts)
  of the blocks the point reads.
-/
import proofs.«126478_j41961830481956_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Cases

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First token block, overlap: the running block is the zeros plus the block product. -/
theorem sout_A (c : Dev nD) (i : grid0.Coords) (arg4 : Memref sig .tc .vmem S1x1024x768 .f32) (harg4 : arg4.IsWhole) (arg5 : Memref sig .tc .vmem S1x1x1024 .i32) (harg5 : arg5.IsWhole) (arg6 : Memref sig .tc .vmem S1x1024x1 .f32) (harg6 : arg6.IsWhole) (arg7 : Memref sig .tc .vmem S1x1024x768 .f32) (harg7 : arg7.IsWhole) (arg8 : Memref sig .tc .vmem S1024x768 .f32) (harg8 : arg8.IsWhole) (hc0 : cond0_0 i) (hc2 : ¬cond0_2 i) (x0 : Vec F S1x1024x768 .f32) (x1 : Vec F S1x1x1024 .i32) (x2 : Vec F S1x1024x1 .f32) (xt0 : TbBuf0 (F := F) c tbM0_0) (hc1 : cond0_1 i (tbM0_0.view.readAt (Elt F) (Rect.unit (s := S256) (k0_off1 i) S1.size (k0_off1_inb i)).toLoadRect xt0 (Shape.Idx.first (numel1_S1.symm ▸ Nat.one_pos)))) :
    sout0_A_0 c i arg4 harg4 arg5 harg5 arg6 harg6 arg7 harg7 arg8 harg8 hc0 hc2 x0 x1 x2 xt0 hc1 = k0_pay2 i x1 x0 k0_pay1 := by
  unfold sout0_A_0
  rw [View.read_writes_eq_canon _ _ _ (scover0_A_0 c i arg4 harg4 arg5 harg5 arg6 harg6 arg7 harg7 arg8 harg8 hc0 hc2 x0 x1 x2 xt0 hc1)]
  unfold kernelRun0_A
  dsimp only
  sl_unfold_words
  rw [View.canon_cons_unit_zero (S := S1024x768) hz2, View.readCov_unit_zero (S := S1024x768) _ hz2]
  simp only [View.readAt_eq_ld, harg4.read_unread, harg5.read_unread, harg6.read_unread, harg8.read_unread,
    View.ld_unit_zero (S := S1x1x1024) hz3, View.ld_unit_zero (S := S1x1024x768) hz3, View.ld_unit_zero (S := S1x1024x1) hz3,
    View.ld_unit_zero (S := S1024x768) hz2]

/-- First token block, no overlap: the running block is the zeros. -/
theorem sout_B (c : Dev nD) (i : grid0.Coords) (arg4 : Memref sig .tc .vmem S1x1024x768 .f32) (harg4 : arg4.IsWhole) (arg5 : Memref sig .tc .vmem S1x1x1024 .i32) (harg5 : arg5.IsWhole) (arg6 : Memref sig .tc .vmem S1x1024x1 .f32) (harg6 : arg6.IsWhole) (arg7 : Memref sig .tc .vmem S1x1024x768 .f32) (harg7 : arg7.IsWhole) (arg8 : Memref sig .tc .vmem S1024x768 .f32) (harg8 : arg8.IsWhole) (hc0 : cond0_0 i) (hc2 : ¬cond0_2 i) (x0 : Vec F S1x1024x768 .f32) (x1 : Vec F S1x1x1024 .i32) (x2 : Vec F S1x1024x1 .f32) (xt0 : TbBuf0 (F := F) c tbM0_0) (hc1 : ¬cond0_1 i (tbM0_0.view.readAt (Elt F) (Rect.unit (s := S256) (k0_off1 i) S1.size (k0_off1_inb i)).toLoadRect xt0 (Shape.Idx.first (numel1_S1.symm ▸ Nat.one_pos)))) :
    sout0_B_0 c i arg4 harg4 arg5 harg5 arg6 harg6 arg7 harg7 arg8 harg8 hc0 hc2 x0 x1 x2 xt0 hc1 = k0_pay1 := by
  unfold sout0_B_0
  rw [View.read_writes_eq_canon _ _ _ (scover0_B_0 c i arg4 harg4 arg5 harg5 arg6 harg6 arg7 harg7 arg8 harg8 hc0 hc2 x0 x1 x2 xt0 hc1)]
  unfold kernelRun0_B
  dsimp only
  rw [View.canon_unit_zero hz2]

/-- A middle token block with overlap: the running block gains the block product. -/
theorem sout_C (c : Dev nD) (i : grid0.Coords) (arg4 : Memref sig .tc .vmem S1x1024x768 .f32) (harg4 : arg4.IsWhole) (arg5 : Memref sig .tc .vmem S1x1x1024 .i32) (harg5 : arg5.IsWhole) (arg6 : Memref sig .tc .vmem S1x1024x1 .f32) (harg6 : arg6.IsWhole) (arg7 : Memref sig .tc .vmem S1x1024x768 .f32) (harg7 : arg7.IsWhole) (arg8 : Memref sig .tc .vmem S1024x768 .f32) (harg8 : arg8.IsWhole) (hc0 : ¬cond0_0 i) (hc2 : ¬cond0_2 i) (x0 : Vec F S1x1024x768 .f32) (x1 : Vec F S1x1x1024 .i32) (x2 : Vec F S1x1024x1 .f32) (xt0 : TbBuf0 (F := F) c tbM0_0) (xs0 : Vec F S1024x768 .f32) (hc1 : cond0_1 i (tbM0_0.view.readAt (Elt F) (Rect.unit (s := S256) (k0_off1 i) S1.size (k0_off1_inb i)).toLoadRect xt0 (Shape.Idx.first (numel1_S1.symm ▸ Nat.one_pos)))) :
    sout0_C_0 c i arg4 harg4 arg5 harg5 arg6 harg6 arg7 harg7 arg8 harg8 hc0 hc2 x0 x1 x2 xt0 xs0 hc1 = k0_pay2 i x1 x0 xs0 := by
  unfold sout0_C_0
  rw [View.read_writes_eq_canon _ _ _ (scover0_C_0 c i arg4 harg4 arg5 harg5 arg6 harg6 arg7 harg7 arg8 harg8 hc0 hc2 x0 x1 x2 xt0 xs0 hc1)]
  unfold kernelRun0_C
  dsimp only
  rw [View.canon_unit_zero hz2]
  simp only [View.readAt_eq_ld, harg4.read_unread, harg5.read_unread, harg6.read_unread, harg8.read_unread,
    View.ld_unit_zero (S := S1x1x1024) hz3, View.ld_unit_zero (S := S1x1024x768) hz3, View.ld_unit_zero (S := S1x1024x1) hz3,
    View.ld_unit_zero (S := S1024x768) hz2]

/-- The last token block with overlap: the running block gains the block product, -/
theorem sout_E (c : Dev nD) (i : grid0.Coords) (arg4 : Memref sig .tc .vmem S1x1024x768 .f32) (harg4 : arg4.IsWhole) (arg5 : Memref sig .tc .vmem S1x1x1024 .i32) (harg5 : arg5.IsWhole) (arg6 : Memref sig .tc .vmem S1x1024x1 .f32) (harg6 : arg6.IsWhole) (arg7 : Memref sig .tc .vmem S1x1024x768 .f32) (harg7 : arg7.IsWhole) (arg8 : Memref sig .tc .vmem S1024x768 .f32) (harg8 : arg8.IsWhole) (hc0 : ¬cond0_0 i) (hc2 : cond0_2 i) (x0 : Vec F S1x1024x768 .f32) (x1 : Vec F S1x1x1024 .i32) (x2 : Vec F S1x1024x1 .f32) (xt0 : TbBuf0 (F := F) c tbM0_0) (xs0 : Vec F S1024x768 .f32) (hc1 : cond0_1 i (tbM0_0.view.readAt (Elt F) (Rect.unit (s := S256) (k0_off1 i) S1.size (k0_off1_inb i)).toLoadRect xt0 (Shape.Idx.first (numel1_S1.symm ▸ Nat.one_pos)))) :
    sout0_E_0 c i arg4 harg4 arg5 harg5 arg6 harg6 arg7 harg7 arg8 harg8 hc0 hc2 x0 x1 x2 xt0 xs0 hc1 = k0_pay2 i x1 x0 xs0 := by
  unfold sout0_E_0
  rw [View.read_writes_eq_canon _ _ _ (scover0_E_0 c i arg4 harg4 arg5 harg5 arg6 harg6 arg7 harg7 arg8 harg8 hc0 hc2 x0 x1 x2 xt0 xs0 hc1)]
  unfold kernelRun0_E
  dsimp only
  sl_unfold_words
  rw [View.canon_unit_zero hz2]
  simp only [View.readAt_eq_ld, harg4.read_unread, harg5.read_unread, harg6.read_unread, harg8.read_unread,
    View.ld_unit_zero (S := S1x1x1024) hz3, View.ld_unit_zero (S := S1x1024x768) hz3, View.ld_unit_zero (S := S1x1024x1) hz3,
    View.ld_unit_zero (S := S1024x768) hz2]

/-- and the output block is that running block times the reciprocal counts. -/
theorem out_E (c : Dev nD) (i : grid0.Coords) (arg4 : Memref sig .tc .vmem S1x1024x768 .f32) (harg4 : arg4.IsWhole) (arg5 : Memref sig .tc .vmem S1x1x1024 .i32) (harg5 : arg5.IsWhole) (arg6 : Memref sig .tc .vmem S1x1024x1 .f32) (harg6 : arg6.IsWhole) (arg7 : Memref sig .tc .vmem S1x1024x768 .f32) (harg7 : arg7.IsWhole) (arg8 : Memref sig .tc .vmem S1024x768 .f32) (harg8 : arg8.IsWhole) (hc0 : ¬cond0_0 i) (hc2 : cond0_2 i) (x0 : Vec F S1x1024x768 .f32) (x1 : Vec F S1x1x1024 .i32) (x2 : Vec F S1x1024x1 .f32) (xt0 : TbBuf0 (F := F) c tbM0_0) (xs0 : Vec F S1024x768 .f32) (hc1 : cond0_1 i (tbM0_0.view.readAt (Elt F) (Rect.unit (s := S256) (k0_off1 i) S1.size (k0_off1_inb i)).toLoadRect xt0 (Shape.Idx.first (numel1_S1.symm ▸ Nat.one_pos)))) :
    out0_E_3 c i arg4 harg4 arg5 harg5 arg6 harg6 arg7 harg7 arg8 harg8 hc0 hc2 x0 x1 x2 xt0 xs0 hc1 = k0_pay3 (k0_pay2 i x1 x0 xs0) x2 := by
  unfold out0_E_3
  rw [View.read_writes_eq_canon _ _ _ (cover0_E_3 c i arg4 harg4 arg5 harg5 arg6 harg6 arg7 harg7 arg8 harg8 hc0 hc2 x0 x1 x2 xt0 xs0 hc1)]
  unfold kernelRun0_E
  dsimp only
  sl_unfold_words
  rw [View.canon_unit_zero hz3]
  simp only [View.readAt_eq_ld, harg4.read_unread, harg5.read_unread, harg6.read_unread, harg8.read_unread,
    View.ld_unit_zero (S := S1x1x1024) hz3, View.ld_unit_zero (S := S1x1024x768) hz3, View.ld_unit_zero (S := S1x1024x1) hz3,
    View.ld_unit_zero (S := S1024x768) hz2]
  rw [View.readCov_unit_zero (S := S1024x768) _ hz2]

/-- The last token block without overlap: the output block is the running block as the point before left it, times the
    reciprocal counts. -/
theorem out_F (c : Dev nD) (i : grid0.Coords) (arg4 : Memref sig .tc .vmem S1x1024x768 .f32) (harg4 : arg4.IsWhole) (arg5 : Memref sig .tc .vmem S1x1x1024 .i32) (harg5 : arg5.IsWhole) (arg6 : Memref sig .tc .vmem S1x1024x1 .f32) (harg6 : arg6.IsWhole) (arg7 : Memref sig .tc .vmem S1x1024x768 .f32) (harg7 : arg7.IsWhole) (arg8 : Memref sig .tc .vmem S1024x768 .f32) (harg8 : arg8.IsWhole) (hc0 : ¬cond0_0 i) (hc2 : cond0_2 i) (x0 : Vec F S1x1024x768 .f32) (x1 : Vec F S1x1x1024 .i32) (x2 : Vec F S1x1024x1 .f32) (xt0 : TbBuf0 (F := F) c tbM0_0) (xs0 : Vec F S1024x768 .f32) (hc1 : ¬cond0_1 i (tbM0_0.view.readAt (Elt F) (Rect.unit (s := S256) (k0_off1 i) S1.size (k0_off1_inb i)).toLoadRect xt0 (Shape.Idx.first (numel1_S1.symm ▸ Nat.one_pos)))) :
    out0_F_3 c i arg4 harg4 arg5 harg5 arg6 harg6 arg7 harg7 arg8 harg8 hc0 hc2 x0 x1 x2 xt0 xs0 hc1 = k0_pay3 xs0 x2 := by
  unfold out0_F_3
  rw [View.read_writes_eq_canon _ _ _ (cover0_F_3 c i arg4 harg4 arg5 harg5 arg6 harg6 arg7 harg7 arg8 harg8 hc0 hc2 x0 x1 x2 xt0 xs0 hc1)]
  unfold kernelRun0_F
  dsimp only
  rw [View.canon_unit_zero hz3]
  simp only [View.readAt_eq_ld, harg4.read_unread, harg5.read_unread, harg6.read_unread, harg8.read_unread,
    View.ld_unit_zero (S := S1x1x1024) hz3, View.ld_unit_zero (S := S1x1024x768) hz3, View.ld_unit_zero (S := S1x1024x1) hz3,
    View.ld_unit_zero (S := S1024x768) hz2]

end Cert.KernelIdeal.Cases

end
-- ==== Proof.KernelChain.lean ====
/-
  The running block of the pooling kernel, point by point.

  The 256 grid points are ordered sentence-major, then slot block, then token block, so four consecutive points
  `4q, …, 4q + 3` are the four token blocks of one pair (sentence, slot block).  At each point the running block gains
  the point's block product when the point's overlap word is not zero (`step`), starting from the zeros at the first
  of the four points; after the fourth point the output block is the running block times the reciprocal counts.
-/
import proofs.«126478_j41961830481956_2_alg».proof.Proof.Gen.KernelIdeal.Frame
import proofs.«126478_j41961830481956_2_alg».proof.Proof.KernelCases
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Chain

open Cert.KernelIdeal Cert.KernelIdeal.Gen

variable {F : FTy → Type} [FloatOps F]

open Cert.KernelIdeal.Cases

variable (m : (ℓ : Loc nD τ sig) → Buf (Elt F) ℓ)

/-- The overlap word the body reads at point `t`. -/
abbrev wordAt (hO : Ok m) (t : Fin (cfgM m hO).N) : BitVec 32 :=
  tbM0_0.view.readAt (Elt F) (Rect.unit (s := S256) (k0_off1 (grid0.coords t)) S1.size (k0_off1_inb (grid0.coords t))).toLoadRect (tbl m 0) (Shape.Idx.first (numel1_S1.symm ▸ Nat.one_pos))

/-- Point `t` adds its block product: its overlap word is not zero. -/
abbrev hit (hO : Ok m) (t : Fin (cfgM m hO).N) : Prop := cond0_1 (grid0.coords t) (wordAt m hO t)

/-- One point's effect on the running block. -/
def step (hO : Ok m) (c : Dev nD) (s : Vec F S1024x768 .f32) (t : Fin (cfgM m hO).N) : Vec F S1024x768 .f32 :=
  if hit m hO t then k0_pay2 (grid0.coords t) (iblk m hO c 1 t) (iblk m hO c 0 t) s else s

/-- The running block after point `n`: restarted from the zeros at every fourth point. -/
def acc (hO : Ok m) (c : Dev nD) : (n : ℕ) → n < (cfgM m hO).N → Vec F S1024x768 .f32
  | 0, h => step m hO c k0_pay1 ⟨0, h⟩
  | n + 1, h => step m hO c (if (n + 1) % 4 = 0 then k0_pay1 else acc hO c n (Nat.lt_of_succ_lt h)) ⟨n + 1, h⟩

theorem acc_zero (hO : Ok m) (c : Dev nD) (h : 0 < (cfgM m hO).N) : acc m hO c 0 h = step m hO c k0_pay1 ⟨0, h⟩ := rfl
theorem acc_succ (hO : Ok m) (c : Dev nD) (n : ℕ) (h : n + 1 < (cfgM m hO).N) :
    acc m hO c (n + 1) h = step m hO c (if (n + 1) % 4 = 0 then k0_pay1 else acc m hO c n (Nat.lt_of_succ_lt h)) ⟨n + 1, h⟩ := rfl

set_option maxHeartbeats 1000000 in
/-- What the frame run found in the scratch after point `n` is the running block. -/
theorem scratch_eq (hO : Ok m) (c : Dev nD) : ∀ (n : ℕ) (h : n < (cfgM m hO).N), (outsAt0 m hO c n h).2 = acc m hO c n h
  | 0, h => by
    rw [acc_zero]
    unfold step
    have h2 : ¬(0 : ℕ) % 4 = 3 := by decide
    by_cases h1 : hit m hO ⟨0, h⟩
    · rw [if_pos h1]
      rw [outsAt0_A m hO c ⟨0, h⟩ rfl h1 h2]
      dsimp only
      exact sout_A c (grid0.coords ⟨0, h⟩) (ms0_0 m hO ⟨0, h⟩) (hs0_0 m hO ⟨0, h⟩) (ms0_1 m hO ⟨0, h⟩) (hs0_1 m hO ⟨0, h⟩) (ms0_2 m hO ⟨0, h⟩) (hs0_2 m hO ⟨0, h⟩) (ms0_3 m hO ⟨0, h⟩) (hs0_3 m hO ⟨0, h⟩) scM0_0 (Memref.isWhole_whole _) ((hcond0_0 ⟨0, h⟩).mpr rfl) (fun hh => h2 ((hcond0_2 ⟨0, h⟩).mp hh)) (iblk m hO c 0 ⟨0, h⟩) (iblk m hO c 1 ⟨0, h⟩) (iblk m hO c 2 ⟨0, h⟩) (tbl m 0) h1
    · rw [if_neg h1]
      rw [outsAt0_B m hO c ⟨0, h⟩ rfl h1 h2]
      dsimp only
      exact sout_B c (grid0.coords ⟨0, h⟩) (ms0_0 m hO ⟨0, h⟩) (hs0_0 m hO ⟨0, h⟩) (ms0_1 m hO ⟨0, h⟩) (hs0_1 m hO ⟨0, h⟩) (ms0_2 m hO ⟨0, h⟩) (hs0_2 m hO ⟨0, h⟩) (ms0_3 m hO ⟨0, h⟩) (hs0_3 m hO ⟨0, h⟩) scM0_0 (Memref.isWhole_whole _) ((hcond0_0 ⟨0, h⟩).mpr rfl) (fun hh => h2 ((hcond0_2 ⟨0, h⟩).mp hh)) (iblk m hO c 0 ⟨0, h⟩) (iblk m hO c 1 ⟨0, h⟩) (iblk m hO c 2 ⟨0, h⟩) (tbl m 0) h1
  | n + 1, h => by
    have ih := scratch_eq hO c n (Nat.lt_of_succ_lt h)
    rw [acc_succ]
    unfold step
    by_cases h1 : hit m hO ⟨n + 1, h⟩
    · rw [if_pos h1]
      by_cases h0 : (n + 1) % 4 = 0
      · rw [if_pos h0]
        have h2 : ¬(n + 1) % 4 = 3 := by omega
        rw [outsAt0_A m hO c ⟨n + 1, h⟩ h0 h1 h2]
        dsimp only
        exact sout_A c (grid0.coords ⟨n + 1, h⟩) (ms0_0 m hO ⟨n + 1, h⟩) (hs0_0 m hO ⟨n + 1, h⟩) (ms0_1 m hO ⟨n + 1, h⟩) (hs0_1 m hO ⟨n + 1, h⟩) (ms0_2 m hO ⟨n + 1, h⟩) (hs0_2 m hO ⟨n + 1, h⟩) (ms0_3 m hO ⟨n + 1, h⟩) (hs0_3 m hO ⟨n + 1, h⟩) scM0_0 (Memref.isWhole_whole _) ((hcond0_0 ⟨n + 1, h⟩).mpr h0) (fun hh => h2 ((hcond0_2 ⟨n + 1, h⟩).mp hh)) (iblk m hO c 0 ⟨n + 1, h⟩) (iblk m hO c 1 ⟨n + 1, h⟩) (iblk m hO c 2 ⟨n + 1, h⟩) (tbl m 0) h1
      · rw [if_neg h0, ← ih]
        by_cases h2 : (n + 1) % 4 = 3
        · rw [outsAt0_E m hO c ⟨n + 1, h⟩ h0 h1 h2]
          dsimp only
          exact sout_E c (grid0.coords ⟨n + 1, h⟩) (ms0_0 m hO ⟨n + 1, h⟩) (hs0_0 m hO ⟨n + 1, h⟩) (ms0_1 m hO ⟨n + 1, h⟩) (hs0_1 m hO ⟨n + 1, h⟩) (ms0_2 m hO ⟨n + 1, h⟩) (hs0_2 m hO ⟨n + 1, h⟩) (ms0_3 m hO ⟨n + 1, h⟩) (hs0_3 m hO ⟨n + 1, h⟩) scM0_0 (Memref.isWhole_whole _) (fun hh => h0 ((hcond0_0 ⟨n + 1, h⟩).mp hh)) ((hcond0_2 ⟨n + 1, h⟩).mpr h2) (iblk m hO c 0 ⟨n + 1, h⟩) (iblk m hO c 1 ⟨n + 1, h⟩) (iblk m hO c 2 ⟨n + 1, h⟩) (tbl m 0) (outsAt0 m hO c n (Nat.lt_of_succ_lt h)).2 h1
        · rw [outsAt0_C m hO c ⟨n + 1, h⟩ h0 h1 h2]
          dsimp only
          exact sout_C c (grid0.coords ⟨n + 1, h⟩) (ms0_0 m hO ⟨n + 1, h⟩) (hs0_0 m hO ⟨n + 1, h⟩) (ms0_1 m hO ⟨n + 1, h⟩) (hs0_1 m hO ⟨n + 1, h⟩) (ms0_2 m hO ⟨n + 1, h⟩) (hs0_2 m hO ⟨n + 1, h⟩) (ms0_3 m hO ⟨n + 1, h⟩) (hs0_3 m hO ⟨n + 1, h⟩) scM0_0 (Memref.isWhole_whole _) (fun hh => h0 ((hcond0_0 ⟨n + 1, h⟩).mp hh)) (fun hh => h2 ((hcond0_2 ⟨n + 1, h⟩).mp hh)) (iblk m hO c 0 ⟨n + 1, h⟩) (iblk m hO c 1 ⟨n + 1, h⟩) (iblk m hO c 2 ⟨n + 1, h⟩) (tbl m 0) (outsAt0 m hO c n (Nat.lt_of_succ_lt h)).2 h1
    · rw [if_neg h1]
      by_cases h0 : (n + 1) % 4 = 0
      · rw [if_pos h0]
        have h2 : ¬(n + 1) % 4 = 3 := by omega
        rw [outsAt0_B m hO c ⟨n + 1, h⟩ h0 h1 h2]
        dsimp only
        exact sout_B c (grid0.coords ⟨n + 1, h⟩) (ms0_0 m hO ⟨n + 1, h⟩) (hs0_0 m hO ⟨n + 1, h⟩) (ms0_1 m hO ⟨n + 1, h⟩) (hs0_1 m hO ⟨n + 1, h⟩) (ms0_2 m hO ⟨n + 1, h⟩) (hs0_2 m hO ⟨n + 1, h⟩) (ms0_3 m hO ⟨n + 1, h⟩) (hs0_3 m hO ⟨n + 1, h⟩) scM0_0 (Memref.isWhole_whole _) ((hcond0_0 ⟨n + 1, h⟩).mpr h0) (fun hh => h2 ((hcond0_2 ⟨n + 1, h⟩).mp hh)) (iblk m hO c 0 ⟨n + 1, h⟩) (iblk m hO c 1 ⟨n + 1, h⟩) (iblk m hO c 2 ⟨n + 1, h⟩) (tbl m 0) h1
      · rw [if_neg h0, ← ih]
        by_cases h2 : (n + 1) % 4 = 3
        · rw [outsAt0_F m hO c ⟨n + 1, h⟩ h0 h1 h2]
          dsimp only
          unfold sout0_F_0
          rfl
        · rw [outsAt0_D m hO c ⟨n + 1, h⟩ h0 h1 h2]
          dsimp only
          unfold sout0_D_0
          rfl

set_option maxHeartbeats 1000000 in
/-- At the last of the four points the output block is the running block times the reciprocal counts. -/
theorem out_eq (hO : Ok m) (c : Dev nD) (t : Fin (cfgM m hO).N) (h3 : t.val % 4 = 3) :
    (outsAt0 m hO c t.val t.isLt).1 = k0_pay3 (acc m hO c t.val t.isLt) (iblk m hO c 2 t) := by
  obtain ⟨n, h⟩ := t
  cases n with
  | zero => exact absurd (show (0 : ℕ) % 4 = 3 from h3) (by decide)
  | succ n =>
    have h3' : (n + 1) % 4 = 3 := h3
    have h0 : ¬(n + 1) % 4 = 0 := by omega
    have ih := scratch_eq m hO c n (Nat.lt_of_succ_lt h)
    show (outsAt0 m hO c (n + 1) h).1 = k0_pay3 (acc m hO c (n + 1) h) (iblk m hO c 2 ⟨n + 1, h⟩)
    rw [acc_succ]
    unfold step
    rw [if_neg h0, ← ih]
    by_cases h1 : hit m hO ⟨n + 1, h⟩
    · rw [if_pos h1]
      rw [outsAt0_E m hO c ⟨n + 1, h⟩ h0 h1 h3']
      dsimp only
      exact out_E c (grid0.coords ⟨n + 1, h⟩) (ms0_0 m hO ⟨n + 1, h⟩) (hs0_0 m hO ⟨n + 1, h⟩) (ms0_1 m hO ⟨n + 1, h⟩) (hs0_1 m hO ⟨n + 1, h⟩) (ms0_2 m hO ⟨n + 1, h⟩) (hs0_2 m hO ⟨n + 1, h⟩) (ms0_3 m hO ⟨n + 1, h⟩) (hs0_3 m hO ⟨n + 1, h⟩) scM0_0 (Memref.isWhole_whole _) (fun hh => h0 ((hcond0_0 ⟨n + 1, h⟩).mp hh)) ((hcond0_2 ⟨n + 1, h⟩).mpr h3') (iblk m hO c 0 ⟨n + 1, h⟩) (iblk m hO c 1 ⟨n + 1, h⟩) (iblk m hO c 2 ⟨n + 1, h⟩) (tbl m 0) (outsAt0 m hO c n (Nat.lt_of_succ_lt h)).2 h1
    · rw [if_neg h1]
      rw [outsAt0_F m hO c ⟨n + 1, h⟩ h0 h1 h3']
      dsimp only
      exact out_F c (grid0.coords ⟨n + 1, h⟩) (ms0_0 m hO ⟨n + 1, h⟩) (hs0_0 m hO ⟨n + 1, h⟩) (ms0_1 m hO ⟨n + 1, h⟩) (hs0_1 m hO ⟨n + 1, h⟩) (ms0_2 m hO ⟨n + 1, h⟩) (hs0_2 m hO ⟨n + 1, h⟩) (ms0_3 m hO ⟨n + 1, h⟩) (hs0_3 m hO ⟨n + 1, h⟩) scM0_0 (Memref.isWhole_whole _) (fun hh => h0 ((hcond0_0 ⟨n + 1, h⟩).mp hh)) ((hcond0_2 ⟨n + 1, h⟩).mpr h3') (iblk m hO c 0 ⟨n + 1, h⟩) (iblk m hO c 1 ⟨n + 1, h⟩) (iblk m hO c 2 ⟨n + 1, h⟩) (tbl m 0) (outsAt0 m hO c n (Nat.lt_of_succ_lt h)).2 h1

end Cert.KernelIdeal.Chain

end
-- ==== Proof.OverlapTable.lean ====
/-
  The block-overlap table of the pooling kernel, as one function of the word identifiers.

  The 4096 tokens of a sentence are cut into four blocks of 1024, and so are the 4096 word slots.  For sentence `b`,
  slot block `wi` and token block `ti` the table holds, at the flat position `b · 16 + wi · 4 + ti`, the word 1 when the
  largest identifier of the token block is at least the block's first slot `wi · 1024` and the smallest one at most its
  last slot `wi · 1024 + 1023` (both comparisons signed), and the word 0 otherwise.
-/
import proofs.«126478_j41961830481956_2_alg».proof.KernelIdeal

noncomputable section

namespace Cert.KernelIdeal.Overlap

open Idealize.ShloMosaic Cert.KernelIdeal Cert.KernelIdeal.Facts₀

variable [Facts]

/-- The table, operation by operation as the program computes it from the identifiers. -/
def tableOf (ids : IVec S16x4096 32) : IVec S256 32 :=
  let blocks : IVec S16x4x1024 32 := shapeCast S16x4x1024 ids shapeCasts_S16x4096_S16x4x1024
  let mn : IVec S16x4 32 := Host.reduce IntOp.minsi blocks (constantI S_ 32 2147483647#32) reducesTo_S16x4x1024_S16x4_d2 h_S_
  let mx : IVec S16x4 32 := Host.reduce IntOp.maxsi blocks (constantI S_ 32 2147483648#32) reducesTo_S16x4x1024_S16x4_d2 h_S_
  let lo : IVec S4 32 := muli (iotaInDim S4 32 0) (broadcastInDim S4 ![] bcast_S_S4 (constantI S_ 32 1024#32))
  let hi : IVec S4 32 := addi lo (broadcastInDim S4 ![] bcast_S_S4 (constantI S_ 32 1023#32))
  let ge : IVec S16x4x4 1 := cmpi .sge
    (broadcastInDim S16x4x4 ![0, 1, 2] bcast_S16x1x4_S16x4x4_0_1_2 (broadcastInDim S16x1x4 ![0, 2] bcast_S16x4_S16x1x4_0_2 mx))
    (broadcastInDim S16x4x4 ![0, 1, 2] bcast_S1x4x1_S16x4x4_0_1_2 (broadcastInDim S1x4x1 ![1] bcast_S4_S1x4x1_1 lo))
  let le : IVec S16x4x4 1 := cmpi .sle
    (broadcastInDim S16x4x4 ![0, 1, 2] bcast_S16x1x4_S16x4x4_0_1_2 (broadcastInDim S16x1x4 ![0, 2] bcast_S16x4_S16x1x4_0_2 mn))
    (broadcastInDim S16x4x4 ![0, 1, 2] bcast_S1x4x1_S16x4x4_0_1_2 (broadcastInDim S1x4x1 ![1] bcast_S4_S1x4x1_1 hi))
  shapeCast S256 (extui 32 (andi ge le) natLt_1_32) shapeCasts_S16x4x4_S256

end Cert.KernelIdeal.Overlap

end
-- ==== Proof.OverlapFacts.lean ====
/-
  What a zero word of the block-overlap table says about the identifiers.

  The table word at `(b, wi, ti)` is 1 exactly when the signed maximum of the 1024 identifiers of token block `ti` of
  sentence `b` is at least the first slot `wi · 1024` of slot block `wi`, and their signed minimum at most its last slot
  `wi · 1024 + 1023`.  A signed maximum taken by a left fold dominates every word it met, a signed minimum is below
  every one.  So if some identifier of the token block were a slot `wi · 1024 + wl` of the slot block, both comparisons
  would hold and the word would be 1: a zero word means no identifier of the token block names a slot of the slot block.
-/
import proofs.«126478_j41961830481956_2_alg».proof.Proof.OverlapTable
import Idealize.ShloMosaic.Lib.ValueIdx
import Idealize.ShloMosaic.Lib.Pipeline.Value
import Idealize.ShloMosaic.Lib.Affine
import Idealize.ShloMosaic.PureOps.Reduce

noncomputable section

namespace Cert.KernelIdeal.Overlap

open Idealize.ShloMosaic Idealize.ShloMosaic.ValueIdx Cert.KernelIdeal Cert.KernelIdeal.Facts₀

/-- The larger of two words, read signed, is the larger of their signed readings. -/
theorem toInt_maxsi (x y : BitVec 32) : (IntOp.maxsi x y).toInt = max x.toInt y.toInt := by
  simp only [IntOp.maxsi, BitVec.slt, decide_eq_true_eq]
  split_ifs <;> omega

/-- The smaller of two words, read signed, is the smaller of their signed readings. -/
theorem toInt_minsi (x y : BitVec 32) : (IntOp.minsi x y).toInt = min x.toInt y.toInt := by
  simp only [IntOp.minsi, BitVec.slt, decide_eq_true_eq]
  split_ifs <;> omega

/-- A left fold by the signed maximum dominates its start and every word it met. -/
theorem foldl_maxsi_ge {ι : Type} (f : ι → BitVec 32) :
    ∀ (l : List ι) (init : BitVec 32),
      init.toInt ≤ (l.foldl (fun r n => IntOp.maxsi r (f n)) init).toInt ∧
        ∀ n ∈ l, (f n).toInt ≤ (l.foldl (fun r n => IntOp.maxsi r (f n)) init).toInt
  | [], init => ⟨le_refl _, fun _ hn => nomatch hn⟩
  | a :: l, init => by
    obtain ⟨h1, h2⟩ := foldl_maxsi_ge f l (IntOp.maxsi init (f a))
    rw [toInt_maxsi] at h1
    refine ⟨le_trans (le_max_left _ _) h1, fun n hn => ?_⟩
    rcases List.mem_cons.1 hn with rfl | hn
    · exact le_trans (le_max_right _ _) h1
    · exact h2 n hn

/-- A left fold by the signed minimum is below its start and every word it met. -/
theorem foldl_minsi_le {ι : Type} (f : ι → BitVec 32) :
    ∀ (l : List ι) (init : BitVec 32),
      (l.foldl (fun r n => IntOp.minsi r (f n)) init).toInt ≤ init.toInt ∧
        ∀ n ∈ l, (l.foldl (fun r n => IntOp.minsi r (f n)) init).toInt ≤ (f n).toInt
  | [], init => ⟨le_refl _, fun _ hn => nomatch hn⟩
  | a :: l, init => by
    obtain ⟨h1, h2⟩ := foldl_minsi_le f l (IntOp.minsi init (f a))
    rw [toInt_minsi] at h1
    refine ⟨le_trans h1 (min_le_left _ _), fun n hn => ?_⟩
    rcases List.mem_cons.1 hn with rfl | hn
    · exact le_trans h1 (min_le_right _ _)
    · exact h2 n hn

section
variable {s t u : Shape} {axes : List (Fin s.rank)}

/-- A reduction by the signed maximum dominates every operand element that reduces into the result index. -/
theorem reduce_maxsi_ge (x : s.Idx → BitVec 32) (init : u.Idx → BitVec 32) (h : s.ReducesTo axes t) (hu : 0 < u.numel)
    (i : s.Idx) : (x i).toInt ≤ (Host.reduce IntOp.maxsi x init h hu (h.drop i)).toInt := by
  rw [Host.reduce_eq_foldl]
  refine (foldl_maxsi_ge x _ _).2 i ?_
  rw [List.mem_filter]
  exact ⟨List.mem_map.2 ⟨s.rowMajor i, List.mem_finRange _, Equiv.symm_apply_apply _ _⟩, by simp⟩

/-- A reduction by the signed minimum is below every operand element that reduces into the result index. -/
theorem reduce_minsi_le (x : s.Idx → BitVec 32) (init : u.Idx → BitVec 32) (h : s.ReducesTo axes t) (hu : 0 < u.numel)
    (i : s.Idx) : (Host.reduce IntOp.minsi x init h hu (h.drop i)).toInt ≤ (x i).toInt := by
  rw [Host.reduce_eq_foldl]
  refine (foldl_minsi_le x _ _).2 i ?_
  rw [List.mem_filter]
  exact ⟨List.mem_map.2 ⟨s.rowMajor i, List.mem_finRange _, Equiv.symm_apply_apply _ _⟩, by simp⟩

end

variable [Facts]

/-- The index of block position `(b, ti, tl)` drops to `(b, ti)` when the last axis is reduced. -/
theorem drop_ix3 (b : Fin 16) (ti : Fin 4) (tl : Fin 1024) :
    reducesTo_S16x4x1024_S16x4_d2.drop (ix3 b ti tl) = ix2 b ti := by
  funext a
  match a with
  | ⟨0, _⟩ => exact Fin.ext (reducesTo_S16x4x1024_S16x4_d2.drop_apply_val_of_eq (ix3 b ti tl) ⟨0, by decide⟩ ⟨0, by decide⟩)
  | ⟨1, _⟩ => exact Fin.ext (reducesTo_S16x4x1024_S16x4_d2.drop_apply_val_of_eq (ix3 b ti tl) ⟨1, by decide⟩ ⟨1, by decide⟩)

/-- The identifiers cut into blocks of 1024 tokens. -/
def blocksOf (ids : IVec S16x4096 32) : IVec S16x4x1024 32 := shapeCast S16x4x1024 ids shapeCasts_S16x4096_S16x4x1024

/-- The signed minimum of each token block's identifiers, from the largest word. -/
def mnOf (ids : IVec S16x4096 32) : IVec S16x4 32 :=
  Host.reduce IntOp.minsi (blocksOf ids) (constantI S_ 32 2147483647#32) reducesTo_S16x4x1024_S16x4_d2 h_S_

/-- The signed maximum of each token block's identifiers, from the smallest word. -/
def mxOf (ids : IVec S16x4096 32) : IVec S16x4 32 :=
  Host.reduce IntOp.maxsi (blocksOf ids) (constantI S_ 32 2147483648#32) reducesTo_S16x4x1024_S16x4_d2 h_S_

/-- Block position `(b, ti, tl)` holds the identifier of token `ti · 1024 + tl` of sentence `b`. -/
theorem blocksOf_apply (ids : IVec S16x4096 32) (b : Fin 16) (ti : Fin 4) (tl : Fin 1024)
    (hlt : ti.val * 1024 + tl.val < 4096) :
    blocksOf ids (ix3 b ti tl) = ids (ix2 b ⟨ti.val * 1024 + tl.val, hlt⟩) := by
  unfold blocksOf
  refine shapeCast_apply ids _ (ix3 b ti tl) (ix2 b ⟨ti.val * 1024 + tl.val, hlt⟩) ?_
  rw [Shape.rowMajor_val_two, Shape.rowMajor_val_three]
  show b.val * 4096 + (ti.val * 1024 + tl.val) = (b.val * 4 + ti.val) * 1024 + tl.val
  omega

/-- Every identifier of a token block is at most the block's signed maximum. -/
theorem le_mxOf (ids : IVec S16x4096 32) (b : Fin 16) (ti : Fin 4) (tl : Fin 1024) :
    (blocksOf ids (ix3 b ti tl)).toInt ≤ (mxOf ids (ix2 b ti)).toInt := by
  have h := reduce_maxsi_ge (blocksOf ids) (constantI S_ 32 2147483648#32) reducesTo_S16x4x1024_S16x4_d2 h_S_ (ix3 b ti tl)
  rw [drop_ix3] at h
  exact h

/-- Every identifier of a token block is at least the block's signed minimum. -/
theorem mnOf_le (ids : IVec S16x4096 32) (b : Fin 16) (ti : Fin 4) (tl : Fin 1024) :
    (mnOf ids (ix2 b ti)).toInt ≤ (blocksOf ids (ix3 b ti tl)).toInt := by
  have h := reduce_minsi_le (blocksOf ids) (constantI S_ 32 2147483647#32) reducesTo_S16x4x1024_S16x4_d2 h_S_ (ix3 b ti tl)
  rw [drop_ix3] at h
  exact h

/-- The table read at `(b, wi, ti)`: the two signed comparisons of the block's extremes with the slot block's ends,
    conjoined and widened to a word. -/
theorem tableOf_apply (ids : IVec S16x4096 32) (b : Fin 16) (wi ti : Fin 4) (hlt : b.val * 16 + wi.val * 4 + ti.val < 256) :
    tableOf ids (ix1 ⟨b.val * 16 + wi.val * 4 + ti.val, hlt⟩) =
      (IntOp.andi
        (IntOp.cmpi .sge (mxOf ids (ix2 b ti)) (IntOp.muli (BitVec.ofNat 32 wi.val) 1024#32))
        (IntOp.cmpi .sle (mnOf ids (ix2 b ti))
          (IntOp.addi (IntOp.muli (BitVec.ofNat 32 wi.val) 1024#32) 1023#32))).setWidth 32 := by
  unfold tableOf
  dsimp only
  -- the flat position `b · 16 + wi · 4 + ti` is the position of `(b, wi, ti)`
  refine (shapeCast_apply _ shapeCasts_S16x4x4_S256 _ (ix3 b wi ti) (by
    rw [Shape.rowMajor_val_three, Shape.rowMajor_val_one]
    show (b.val * 4 + wi.val) * 4 + ti.val = b.val * 16 + wi.val * 4 + ti.val
    omega)).trans ?_
  -- the block extremes broadcast along the slot-block axis, the slot-block ends along the two others
  have eA : ∀ v : IVec S16x4 32,
      broadcastInDim S16x4x4 ![0, 1, 2] bcast_S16x1x4_S16x4x4_0_1_2 (broadcastInDim S16x1x4 ![0, 2] bcast_S16x4_S16x1x4_0_2 v)
        (ix3 b wi ti) = v (ix2 b ti) := by
    intro v
    refine (broadcastInDim_apply _ _ _ (ix3 b wi ti) (ix3 b (0 : Fin 1) ti) (fun a => ?_)).trans
      (broadcastInDim_apply _ _ _ (ix3 b (0 : Fin 1) ti) (ix2 b ti) (fun a => ?_))
    · match a with
      | ⟨0, _⟩ => rfl
      | ⟨1, _⟩ => rfl
      | ⟨2, _⟩ => rfl
    · match a with
      | ⟨0, _⟩ => rfl
      | ⟨1, _⟩ => rfl
  have eB : ∀ v : IVec S4 32,
      broadcastInDim S16x4x4 ![0, 1, 2] bcast_S1x4x1_S16x4x4_0_1_2 (broadcastInDim S1x4x1 ![1] bcast_S4_S1x4x1_1 v)
        (ix3 b wi ti) = v (ix1 wi) := by
    intro v
    refine (broadcastInDim_apply _ _ _ (ix3 b wi ti) (ix3 (0 : Fin 1) wi (0 : Fin 1)) (fun a => ?_)).trans
      (broadcastInDim_apply _ _ _ (ix3 (0 : Fin 1) wi (0 : Fin 1)) (ix1 wi) (fun a => ?_))
    · match a with
      | ⟨0, _⟩ => rfl
      | ⟨1, _⟩ => rfl
      | ⟨2, _⟩ => rfl
    · match a with
      | ⟨0, _⟩ => rfl
  show (IntOp.andi (IntOp.cmpi .sge _ _) (IntOp.cmpi .sle _ _)).setWidth 32 = _
  rw [eA, eA, eB, eB]
  rfl

/-- A zero table word means no identifier of token block `ti` of sentence `b` names a slot of slot block `wi`. -/
theorem no_hit (ids : IVec Cert.KernelIdeal.S16x4096 32) (b : Fin 16) (wi ti : Fin 4) (wl tl : Fin 1024)
    (h : tableOf ids (ix1 ⟨b.val * 16 + wi.val * 4 + ti.val, by omega⟩) = 0#32) :
    ids (ix2 b ⟨ti.val * 1024 + tl.val, by omega⟩) ≠ BitVec.ofNat 32 (wi.val * 1024 + wl.val) := by
  intro hid
  have hwi := wi.isLt
  have hwl := wl.isLt
  rw [tableOf_apply] at h
  -- the identifier, read signed, is `wi · 1024 + wl`, between the block's extremes
  have hx : (blocksOf ids (ix3 b ti tl)).toInt = (wi.val * 1024 + wl.val : Nat) := by
    rw [blocksOf_apply ids b ti tl (by omega), hid, BitVec.toInt_ofNat']
    exact Int.bmod_eq_of_le (by omega) (by omega)
  have hmx := le_mxOf ids b ti tl
  have hmn := mnOf_le ids b ti tl
  rw [hx] at hmx hmn
  -- the slot block's ends, read signed
  have hlo : (IntOp.muli (BitVec.ofNat 32 wi.val) 1024#32).toInt = (wi.val * 1024 : Nat) := by
    show (BitVec.ofNat 32 wi.val * 1024#32).toInt = _
    rw [BitVec.toInt_mul, BitVec.toInt_ofNat', show (1024#32 : BitVec 32).toInt = 1024 from by decide,
      Int.bmod_eq_of_le (n := (wi.val : Int)) (by omega) (by omega)]
    push_cast
    exact Int.bmod_eq_of_le (by omega) (by omega)
  have hhi : (IntOp.addi (IntOp.muli (BitVec.ofNat 32 wi.val) 1024#32) 1023#32).toInt = (wi.val * 1024 + 1023 : Nat) := by
    show (IntOp.muli (BitVec.ofNat 32 wi.val) 1024#32 + 1023#32).toInt = _
    rw [BitVec.toInt_add, hlo, show (1023#32 : BitVec 32).toInt = 1023 from by decide]
    push_cast
    exact Int.bmod_eq_of_le (by omega) (by omega)
  -- both comparisons hold, so the word is 1, not 0
  have hge : IntOp.cmpi .sge (mxOf ids (ix2 b ti)) (IntOp.muli (BitVec.ofNat 32 wi.val) 1024#32) = 1#1 :=
    IntOp.cmpi_sge.2 (by rw [hlo]; push_cast at hmx ⊢; omega)
  have hle : IntOp.cmpi .sle (mnOf ids (ix2 b ti))
      (IntOp.addi (IntOp.muli (BitVec.ofNat 32 wi.val) 1024#32) 1023#32) = 1#1 :=
    IntOp.cmpi_sle.2 (by rw [hhi]; push_cast at hmn ⊢; omega)
  rw [hge, hle] at h
  exact absurd h (by decide)

end Cert.KernelIdeal.Overlap

end
-- ==== Proof.KernelBlocks.lean ====
/-
  What the kernel program's windows hold, element by element, over the extended reals.

  The kernel runs on a grid of 16 × 4 × 4 points; point `t = 16 b + 4 wi + ti` works on sentence `b`, slot block `wi` and
  token block `ti` (blocks of 1024).  Before the grid the program computes, from the identifiers alone, the token count
  of every flat slot (`counts`), the occupancy mask, the reciprocals of the counts clipped below at one, and the table
  that says which (slot block, token block) pairs can meet.  This file reads each of those arrays, and each input
  window's block at a point, at an index: the token rows and identifiers of the point's token block, the reciprocal
  counts of its slot block, the table word at `t`; and it says which points' output blocks contain a given element of
  the result.
-/
import proofs.«126478_j41961830481956_2_alg».proof.Proof.Gen.KernelIdeal.Frame
import proofs.«126478_j41961830481956_2_alg».proof.Proof.OverlapFacts
import proofs.«126478_j41961830481956_2_alg».proof.Proof.SegMean
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Facts₀

variable (m : (ℓ : Loc nD τ sig) → Buf (Elt Ideal) ℓ)

/-- The token counts per flat slot, as the program accumulates them: ones scattered onto zeros at the flat slot
    `ids (b, t) + b · 4096` of every token. -/
def counts (ids : IVec S16x4096 32) : FVec Ideal S65536 .f32 :=
  Host.scatterAdd scatter_S65536_S65536x1_S65536_n_0_0_1
    (broadcastInDim S65536 ![] bcast_S_S65536 (constant S_ .f32 0x00000000#32))
    (broadcastInDim S65536x1 ![0] bcast_S65536_S65536x1_0 (shapeCast S65536 (addi ids
      (broadcastInDim S16x4096 ![0, 1] bcast_S16x1_S16x4096_0_1 (muli (broadcastInDim S16x1 ![0] bcast_S16_S16x1_0 (iotaInDim S16 32 0))
        (broadcastInDim S16x1 ![] bcast_S_S16x1 (constantI S_ 32 4096#32))))) shapeCasts_S16x4096_S65536))
    (broadcastInDim S65536 ![] bcast_S_S65536 (constant S_ .f32 0x3F800000#32))

/-- Before the grid the identifiers' window array is the identifiers regrouped as `[16, 1, 4096]`. -/
theorem V_v0 (c : Dev nD) : (Gen.V m c main_v0 : S16x1x4096.Idx → BitVec 32)
    = shapeCast S16x1x4096 (m ((c : Thread nD τ).loc main_arg1)) shapeCasts_S16x4096_S16x1x4096 := by
  dsimp only [Gen.V, Gen.hostOps0]; after_results; rfl

/-- Before the grid the occupancy mask compares the regrouped counts with zero. -/
theorem V_v14 (c : Dev nD) : (Gen.V m c main_v14 : S16x4096.Idx → BitVec 1)
    = cmpf (F := Ideal) .ogt (shapeCast S16x4096 (counts (m ((c : Thread nD τ).loc main_arg1))) shapeCasts_S65536_S16x4096)
        (broadcastInDim S16x4096 ![] bcast_S_S16x4096 (constant (F := Ideal) S_ .f32 0x00000000#32)) := by
  dsimp only [Gen.V, Gen.hostOps0]; after_results; rfl

/-- Before the grid the reciprocal counts' window array is one over the regrouped counts clipped below at one. -/
theorem V_v19 (c : Dev nD) : (Gen.V m c main_v19 : S16x4096x1.Idx → EReal)
    = shapeCast S16x4096x1 (Host.divf (F := Ideal) (broadcastInDim S16x4096 ![] bcast_S_S16x4096 (constant (F := Ideal) S_ .f32 0x3F800000#32))
        (maximumf (shapeCast S16x4096 (counts (m ((c : Thread nD τ).loc main_arg1))) shapeCasts_S65536_S16x4096)
          (broadcastInDim S16x4096 ![] bcast_S_S16x4096 (constant (F := Ideal) S_ .f32 0x3F800000#32)))) shapeCasts_S16x4096_S16x4096x1 := by
  dsimp only [Gen.V, Gen.hostOps0]; after_results; rfl

set_option maxHeartbeats 2000000 in
/-- Before the grid the table holds the overlap table of the identifiers. -/
theorem tbl_eq : (Gen.tbl m 0 : S256.Idx → BitVec 32) = Overlap.tableOf (m (((0 : Dev nD) : Thread nD τ).loc main_arg1)) := by
  unfold Gen.tbl
  show (Gen.V m 0 main_v40 : S256.Idx → BitVec 32) = _
  dsimp only [Gen.V, Gen.hostOps0]; after_results_simp; rfl

/-! ## The grid points' coordinates -/

/-- The windows' block indices and the table offset at grid point `t`, decided over the 256 points: with
    `t = 16 b + 4 wi + ti`, the token rows' block is `(b, ti, 0)`, the identifiers' `(b, 0, ti)`, the reciprocal counts'
    and the output's `(b, wi, 0)`, and the table is read at `t` itself. -/
theorem coords_facts : ∀ t : Fin grid0.N,
    cc0_transform_0 (grid0.coords t) 0 = t.val / 16 ∧ cc0_transform_0 (grid0.coords t) 1 = t.val % 4
      ∧ cc0_transform_0 (grid0.coords t) 2 = 0
    ∧ cc0_transform_1 (grid0.coords t) 0 = t.val / 16 ∧ cc0_transform_1 (grid0.coords t) 1 = 0
      ∧ cc0_transform_1 (grid0.coords t) 2 = t.val % 4
    ∧ cc0_transform_2 (grid0.coords t) 0 = t.val / 16 ∧ cc0_transform_2 (grid0.coords t) 1 = t.val / 4 % 4
      ∧ cc0_transform_2 (grid0.coords t) 2 = 0
    ∧ cc0_transform_3 (grid0.coords t) 0 = t.val / 16 ∧ cc0_transform_3 (grid0.coords t) 1 = t.val / 4 % 4
      ∧ cc0_transform_3 (grid0.coords t) 2 = 0
    ∧ k0_off1 (grid0.coords t) 0 = t.val := by
  decide +kernel

/-- The sentence `n / 16` of grid point `n`. -/
abbrev sentOf (n : Nat) (h : n < 256) : Fin 16 := ⟨n / 16, by omega⟩
/-- Position `k · 1024 + j` of a sentence: element `j` of block `k` of its 4096 tokens or slots. -/
abbrev posOf (k : Nat) (hk : k < 4) (j : Fin 1024) : Fin 4096 := ⟨k * 1024 + j.val, by have := j.isLt; omega⟩

/-! ## The input windows' blocks at an index -/

/-- Window 0's block at point `t` holds the token rows of sentence `b`, positions `ti · 1024 + j`. -/
theorem iblk0_apply (hO : Gen.Ok m) (c : Dev nD) (t : Fin (Gen.cfgM m hO).N) (u : Fin 1) (j : Fin 1024) (q : Fin 768) :
    (Gen.iblk m hO c 0 t : S1x1024x768.Idx → EReal) (ix3 u j q)
      = m ((c : Thread nD τ).loc main_arg0)
          (ix3 (sentOf t.val t.isLt) (posOf (t.val % 4) (Nat.mod_lt _ (by decide)) j) q) := by
  obtain ⟨e0, e1, e2, -⟩ := coords_facts t
  have hu : u.val = 0 := by have := u.isLt; omega
  have hemb : ((((Gen.cfgM m hO).win 0).blk t).view.emb (ix3 u j q) : S16x4096x768.Idx)
      = ix3 (sentOf t.val t.isLt) (posOf (t.val % 4) (Nat.mod_lt _ (by decide)) j) q := by
    funext a
    apply Fin.ext
    match a with
    | ⟨0, _⟩ =>
      show cc0_transform_0 (grid0.coords t) 0 * 1 + 1 * u.val = t.val / 16
      rw [e0]; omega
    | ⟨1, _⟩ =>
      show cc0_transform_0 (grid0.coords t) 1 * 1024 + 1 * j.val = t.val % 4 * 1024 + j.val
      rw [e1]; omega
    | ⟨2, _⟩ =>
      show cc0_transform_0 (grid0.coords t) 2 * 768 + 1 * q.val = q.val
      rw [e2]; omega
  refine (congrArg (Gen.V m c main_arg0 : S16x4096x768.Idx → EReal) hemb).trans ?_
  rw [Gen.V_main_arg0]

/-- Window 1's block at point `t` holds the identifiers of sentence `b`, positions `ti · 1024 + j`. -/
theorem iblk1_apply (hO : Gen.Ok m) (c : Dev nD) (t : Fin (Gen.cfgM m hO).N) (u v : Fin 1) (j : Fin 1024) :
    (Gen.iblk m hO c 1 t : S1x1x1024.Idx → BitVec 32) (ix3 u v j)
      = m ((c : Thread nD τ).loc main_arg1)
          (ix2 (sentOf t.val t.isLt) (posOf (t.val % 4) (Nat.mod_lt _ (by decide)) j)) := by
  obtain ⟨-, -, -, e0, e1, e2, -⟩ := coords_facts t
  have hu : u.val = 0 := by have := u.isLt; omega
  have hv : v.val = 0 := by have := v.isLt; omega
  have hemb : ((((Gen.cfgM m hO).win 1).blk t).view.emb (ix3 u v j) : S16x1x4096.Idx)
      = ix3 (sentOf t.val t.isLt) (0 : Fin 1) (posOf (t.val % 4) (Nat.mod_lt _ (by decide)) j) := by
    funext a
    apply Fin.ext
    match a with
    | ⟨0, _⟩ =>
      show cc0_transform_1 (grid0.coords t) 0 * 1 + 1 * u.val = t.val / 16
      rw [e0]; omega
    | ⟨1, _⟩ =>
      show cc0_transform_1 (grid0.coords t) 1 * 1 + 1 * v.val = 0
      rw [e1]; omega
    | ⟨2, _⟩ =>
      show cc0_transform_1 (grid0.coords t) 2 * 1024 + 1 * j.val = t.val % 4 * 1024 + j.val
      rw [e2]; omega
  refine (congrArg (Gen.V m c main_v0 : S16x1x4096.Idx → BitVec 32) hemb).trans ?_
  rw [V_v0]
  refine shapeCast_apply _ _ _ _ ?_
  show (S16x4096.rowMajor (ix2 (sentOf t.val t.isLt) (posOf (t.val % 4) (Nat.mod_lt _ (by decide)) j))).val
    = (S16x1x4096.rowMajor (ix3 (sentOf t.val t.isLt) (0 : Fin 1) (posOf (t.val % 4) (Nat.mod_lt _ (by decide)) j))).val
  rewrite [Shape.rowMajor_val_two, Shape.rowMajor_val_three]
  show t.val / 16 * 4096 + (t.val % 4 * 1024 + j.val) = (t.val / 16 * 1 + 0) * 4096 + (t.val % 4 * 1024 + j.val)
  omega

/-- A broadcast scalar constant reads the constant's value at every index. -/
theorem bcast_const_apply (x : BitVec 32) (i : S16x4096.Idx) :
    broadcastInDim S16x4096 ![] bcast_S_S16x4096 (constant (F := Ideal) S_ .f32 x) i = Ideal.ofBits .f32 x :=
  broadcastInDim_apply _ bcast_S_S16x4096 _ i ValueIdx.ix0 (fun a => a.elim0)

/-- The counts regrouped by sentence read the flat slot `b · 4096 + w`. -/
theorem counts_cast_apply (ids : IVec S16x4096 32) (b : Fin 16) (w : Fin 4096) :
    shapeCast S16x4096 (counts ids) shapeCasts_S65536_S16x4096 (ix2 b w) = counts ids (ix1 (Cert.SegMean.slot b w)) := by
  refine shapeCast_apply _ _ _ _ ?_
  rewrite [Shape.rowMajor_val_one, Shape.rowMajor_val_two]
  rfl

/-- Window 2's block at point `t` holds the reciprocals of the clipped counts of sentence `b`, slots `wi · 1024 + p`. -/
theorem iblk2_apply (hO : Gen.Ok m) (c : Dev nD) (t : Fin (Gen.cfgM m hO).N) (u : Fin 1) (p : Fin 1024) (v : Fin 1) :
    (Gen.iblk m hO c 2 t : S1x1024x1.Idx → EReal) (ix3 u p v)
      = Ideal.div (Ideal.ofBits .f32 0x3F800000#32)
          (max (counts (m ((c : Thread nD τ).loc main_arg1))
              (ix1 (Cert.SegMean.slot (sentOf t.val t.isLt) (posOf (t.val / 4 % 4) (Nat.mod_lt _ (by decide)) p))))
            (Ideal.ofBits .f32 0x3F800000#32)) := by
  obtain ⟨-, -, -, -, -, -, e0, e1, e2, -⟩ := coords_facts t
  have hu : u.val = 0 := by have := u.isLt; omega
  have hv : v.val = 0 := by have := v.isLt; omega
  have hemb : ((((Gen.cfgM m hO).win 2).blk t).view.emb (ix3 u p v) : S16x4096x1.Idx)
      = ix3 (sentOf t.val t.isLt) (posOf (t.val / 4 % 4) (Nat.mod_lt _ (by decide)) p) (0 : Fin 1) := by
    funext a
    apply Fin.ext
    match a with
    | ⟨0, _⟩ =>
      show cc0_transform_2 (grid0.coords t) 0 * 1 + 1 * u.val = t.val / 16
      rw [e0]; omega
    | ⟨1, _⟩ =>
      show cc0_transform_2 (grid0.coords t) 1 * 1024 + 1 * p.val = t.val / 4 % 4 * 1024 + p.val
      rw [e1]; omega
    | ⟨2, _⟩ =>
      show cc0_transform_2 (grid0.coords t) 2 * 1 + 1 * v.val = 0
      rw [e2]; omega
  refine (congrArg (Gen.V m c main_v19 : S16x4096x1.Idx → EReal) hemb).trans ?_
  rw [V_v19]
  rw [shapeCast_apply _ shapeCasts_S16x4096_S16x4096x1 _
    (ix2 (sentOf t.val t.isLt) (posOf (t.val / 4 % 4) (Nat.mod_lt _ (by decide)) p)) (by
    rewrite [Shape.rowMajor_val_two, Shape.rowMajor_val_three]
    show t.val / 16 * 4096 + (t.val / 4 % 4 * 1024 + p.val) = (t.val / 16 * 4096 + (t.val / 4 % 4 * 1024 + p.val)) * 1 + 0
    omega)]
  have hd : ∀ (x y : FVec Ideal S16x4096 .f32) (i : S16x4096.Idx), Host.divf x y i = Ideal.div (x i) (y i) :=
    fun _ _ _ => rfl
  rw [hd, maximumf_apply, bcast_const_apply, counts_cast_apply]

/-! ## The table word at a point -/

/-- The word the body reads off the table at point `t` is the overlap table's entry for (sentence, slot block, token
    block) `(b, wi, ti)`. -/
theorem word_eq (hO : Gen.Ok m) (t : Fin (Gen.cfgM m hO).N) :
    Gen.tbM0_0.view.readAt (Elt Ideal) (Rect.unit (s := S256) (k0_off1 (grid0.coords t)) S1.size (k0_off1_inb (grid0.coords t))).toLoadRect
        (Gen.tbl m 0) (Shape.Idx.first (numel1_S1.symm ▸ Nat.one_pos))
      = Overlap.tableOf (m (((0 : Dev nD) : Thread nD τ).loc main_arg1))
          (ix1 (⟨t.val / 16 * 16 + t.val / 4 % 4 * 4 + t.val % 4, by
            have ht : t.val < 256 := t.isLt
            show t.val / 16 * 16 + t.val / 4 % 4 * 4 + t.val % 4 < 256
            omega⟩ : Fin 256)) := by
  obtain ⟨-, -, -, -, -, -, -, -, -, -, -, -, eo⟩ := coords_facts t
  have hidx : (Rect.unit (s := S256) (k0_off1 (grid0.coords t)) S1.size (k0_off1_inb (grid0.coords t))).idx
        (Shape.Idx.first (numel1_S1.symm ▸ Nat.one_pos))
      = ix1 (⟨t.val / 16 * 16 + t.val / 4 % 4 * 4 + t.val % 4, by
            have ht : t.val < 256 := t.isLt
            show t.val / 16 * 16 + t.val / 4 % 4 * 4 + t.val % 4 < 256
            omega⟩ : Fin 256) := by
    funext a
    apply Fin.ext
    obtain rfl : a = 0 := Subsingleton.elim _ _
    have hz : (Shape.Idx.first (numel1_S1.symm ▸ Nat.one_pos : 0 < S1.numel) (0 : Fin 1)).val = 0 := by
      have h1 : (Shape.Idx.first (numel1_S1.symm ▸ Nat.one_pos : 0 < S1.numel) (0 : Fin 1)).val < 1 :=
        (Shape.Idx.first (numel1_S1.symm ▸ Nat.one_pos : 0 < S1.numel) (0 : Fin 1)).isLt
      omega
    show k0_off1 (grid0.coords t) 0 + 1 * (Shape.Idx.first (numel1_S1.symm ▸ Nat.one_pos : 0 < S1.numel) (0 : Fin 1)).val
      = t.val / 16 * 16 + t.val / 4 % 4 * 4 + t.val % 4
    rw [eo, hz]
    omega
  show Gen.tbl m 0 _ = _
  rw [tbl_eq]
  exact congrArg _ hidx

/-! ## The occupancy mask before the region -/

/-- The occupancy mask the program computes before the region is the specification's over the program's own counts. -/
theorem v14_eq (c : Dev nD) :
    (Gen.V m c main_v14 : S16x4096.Idx → BitVec 1) = Cert.SegMean.occupied (counts (m ((c : Thread nD τ).loc main_arg1))) := by
  funext j
  obtain ⟨b, w, rfl⟩ : ∃ b w, j = ix2 b w := ⟨j 0, j 1, eq_ix2 j⟩
  rw [V_v14]
  show FloatOps.cmpf .ogt (shapeCast S16x4096 (counts (m ((c : Thread nD τ).loc main_arg1))) shapeCasts_S65536_S16x4096 (ix2 b w))
    (broadcastInDim S16x4096 ![] bcast_S_S16x4096 (constant (F := Ideal) S_ .f32 0x00000000#32) (ix2 b w)) = _
  rw [bcast_const_apply, counts_cast_apply]
  rfl

/-! ## The output window's blocks -/

/-- An index of the output array is in point `t`'s block exactly when each coordinate is in the block's range. -/
theorem mem_blk3 (hO : Gen.Ok m) (t : Fin (Gen.cfgM m hO).N) (i : S16x4096x768.Idx) :
    i ∈ (((Gen.cfgM m hO).win 3).blk t).view.set
      ↔ ∀ a : Fin 3, cc0_transform_3 (grid0.coords t) a * S1x1024x768.size a ≤ (i a).val
          ∧ (i a).val < cc0_transform_3 (grid0.coords t) a * S1x1024x768.size a + S1x1024x768.size a := by
  exact (Eq.to_iff (congrArg (fun S => i ∈ S)
    (View.set_slice_whole main_v41 (((Gen.cfgM m hO).win 3).rect t)))).trans Rect.mem_set_unit

/-- Every element of the output array is in the block of a point that writes its block back: the last token block's
    point of the element's sentence and slot block. -/
theorem cover3 (hO : Gen.Ok m) (i : S16x4096x768.Idx) :
    ∃ t : Fin (Gen.cfgM m hO).N, ((Gen.cfgM m hO).win 3).flush t = true ∧ i ∈ (((Gen.cfgM m hO).win 3).blk t).view.set := by
  have h0 : (i 0).val < 16 := (i 0).isLt
  have h1 : (i 1).val < 4096 := (i 1).isLt
  have h2 : (i 2).val < 768 := (i 2).isLt
  obtain ⟨t, htv⟩ : ∃ t : Fin (Gen.cfgM m hO).N, t.val = (i 0).val * 16 + (i 1).val / 1024 * 4 + 3 :=
    ⟨⟨(i 0).val * 16 + (i 1).val / 1024 * 4 + 3, by show (i 0).val * 16 + (i 1).val / 1024 * 4 + 3 < 256; omega⟩, rfl⟩
  obtain ⟨-, -, -, -, -, -, -, -, -, e0, e1, e2, -⟩ := coords_facts t
  refine ⟨t, (Gen.flush0_3 (Gen.adm m hO) t).2 (by omega), ?_⟩
  rw [mem_blk3]
  intro a
  match a with
  | ⟨0, _⟩ =>
    show cc0_transform_3 (grid0.coords t) 0 * 1 ≤ (i 0).val ∧ (i 0).val < cc0_transform_3 (grid0.coords t) 0 * 1 + 1
    rw [e0]
    omega
  | ⟨1, _⟩ =>
    show cc0_transform_3 (grid0.coords t) 1 * 1024 ≤ (i 1).val ∧ (i 1).val < cc0_transform_3 (grid0.coords t) 1 * 1024 + 1024
    rw [e1]
    omega
  | ⟨2, _⟩ =>
    show cc0_transform_3 (grid0.coords t) 2 * 768 ≤ (i 2).val ∧ (i 2).val < cc0_transform_3 (grid0.coords t) 2 * 768 + 768
    rw [e2]
    omega

end Cert.KernelIdeal.Blocks

end
-- ==== Proof.LibPlainDot.lean ====
/-
  A plain matrix product `[a, k] × [k, b] → [a, b]` read at an entry.

  The kernel's matrix unit (into the zero accumulator) and the host's `dot_general` are both, on the extended reals, the
  sum over the dimension record's contraction index of the operands' products.  When the record contracts the left
  operand's second axis with the right operand's first — stated here as four facts about the record's operand
  indices, which each use proves by evaluating its record — that sum re-indexes to `Σ j, lhs (p, j) · rhs (j, c)`.
-/
import Idealize.ShloMosaic.Lib.ValueIdx
import Idealize.ShloMosaic.PureOps.Ideal.Laws

noncomputable section

namespace Idealize.ShloMosaic.PlainDot

open Idealize.ShloMosaic Idealize.ShloMosaic.ValueIdx

variable {a k b : ℕ} {φ₁ φ₂ : FTy}

/-- The contraction sum of a plain product at entry `(p, c)`, re-indexed by the contracted coordinate. -/
theorem sum_eq (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    ∑ q : D.contr.Idx, lhs (D.lhsIdx (ix2 p c) q) * rhs (D.rhsIdx (ix2 p c) q)
      = ∑ j : Fin k, lhs (ix2 p j) * rhs (ix2 j c) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 j c := funext fun ax => Fin.ext (by
    match ax with
    | ⟨0, _⟩ => exact (hr0 _ _).trans hk
    | ⟨1, _⟩ => exact hr1 _ _)
  rw [el, er]

/-- The matrix unit into the zero accumulator, at entry `(p, c)`. -/
theorem matmul_zero_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    matmul D prec lhs rhs (constant (F := Ideal) ⟨2, ![a, b]⟩ .f32 0x00000000#32) (ix2 p c)
      = ∑ j : Fin k, lhs (ix2 p j) * rhs (ix2 j c) :=
  (Ideal.matmul_constant_zero_apply D prec lhs rhs (ix2 p c)).trans (sum_eq D hr hs hl0 hl1 hr0 hr1 lhs rhs p c)

/-- The host's `dot_general`, at entry `(p, c)`. -/
theorem dotGeneral_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    Host.dotGeneral D prec lhs rhs (ix2 p c) = ∑ j : Fin k, lhs (ix2 p j) * rhs (ix2 j c) :=
  (Ideal.dotGeneral_apply D prec .single lhs rhs (ix2 p c)).trans (sum_eq D hr hs hl0 hl1 hr0 hr1 lhs rhs p c)

end Idealize.ShloMosaic.PlainDot

end
-- ==== Proof.LibOneHot.lean ====
/-
  One-hot contractions on the extended reals.

  A "one-hot" matrix product replaces an indexed read or an indexed accumulation by a dense sum against an
  indicator: `∑ n, 1[s = id n] · h n` reads `h` at the one `n` whose identifier is `s` (a row gather), and
  `∑ e, 1[d e = n] · u e` adds up the updates `u e` that land on `n` (a row scatter-add). On the extended reals
  both hold with NO finiteness hypothesis: `0 · x = 0` and `1 · x = x` for every `x`, the infinities included, and
  a finite sum of zeros is zero. When no `n` carries the identifier `s` (a padding entry, an out-of-range entry)
  the gather sum is `0`.

  Also here: the indicator as the programs spell it — a one-bit equality test widened to 32 bits and read as a
  signed integer — is the real number 1 or 0.
-/
import Mathlib.Data.EReal.Operations
import Mathlib.Algebra.BigOperators.Group.Finset.Basic
import Mathlib.Algebra.BigOperators.Ring.Finset

namespace Cert.LibOneHot

open Finset

/-- A one-bit word widened to 32 bits without sign and read as a signed integer is `1` when the bit is set and
    `0` otherwise. -/
theorem toInt_zeroExtend_bit (b : BitVec 1) : ((b.zeroExtend 32).toInt : ℝ) = if b = 1#1 then 1 else 0 := by
  rcases BitVec.eq_zero_or_eq_one b with h | h <;> subst h <;> simp <;> decide

/-- The indicator of a proposition as an extended real times `x`: `x` when it holds, `0` when it does not —
    for every extended real `x`. -/
theorem ite_mul (p : Prop) [Decidable p] (x : EReal) : (if p then (1 : EReal) else 0) * x = if p then x else 0 := by
  split <;> simp

/-- GATHER as a dense sum: if the identifiers `f n` are pairwise distinct and `n₀` carries the identifier `s`,
    the sum of `1[s = f n] · h n` over all `n` is `h n₀`. -/
theorem sum_indicator_mul_eq {ι β : Type*} [Fintype ι] [DecidableEq ι] [DecidableEq β] (f : ι → β)
    (hf : Function.Injective f) (s : β) (h : ι → EReal) (n₀ : ι) (hn : f n₀ = s) :
    ∑ n, (if s = f n then (1 : EReal) else 0) * h n = h n₀ := by
  have : ∀ n, (if s = f n then (1 : EReal) else 0) * h n = if n = n₀ then h n else 0 := by
    intro n
    rw [ite_mul]
    by_cases hnn : n = n₀
    · subst hnn; simp [hn]
    · have : s ≠ f n := fun e => hnn (hf (e.symm.trans hn.symm))
      simp [this, hnn]
  simp only [this, Finset.sum_ite_eq', Finset.mem_univ, if_true]

/-- GATHER of an identifier nobody carries (a padding entry): the dense sum is `0`. -/
theorem sum_indicator_mul_eq_zero {ι β : Type*} [Fintype ι] [DecidableEq β] (f : ι → β) (s : β) (h : ι → EReal)
    (hs : ∀ n, s ≠ f n) : ∑ n, (if s = f n then (1 : EReal) else 0) * h n = 0 := by
  refine Finset.sum_eq_zero fun n _ => ?_
  rw [ite_mul, if_neg (hs n)]

/-- SCATTER-ADD as a dense sum: the sum over all updates `e` of `1[f n = d e] · u e` is the sum of the updates that
    land on `n`. -/
theorem sum_indicator_mul_filter {ε β : Type*} [Fintype ε] [DecidableEq β] (d : ε → β) (t : β) (u : ε → EReal) :
    ∑ e, (if t = d e then (1 : EReal) else 0) * u e = ∑ e ∈ Finset.univ.filter (fun e => t = d e), u e := by
  rw [Finset.sum_filter]
  exact Finset.sum_congr rfl fun e _ => ite_mul _ _

end Cert.LibOneHot
-- ==== Proof.LibKeepdims.lean ====
/-
  Reading the "keep the reduced axis as a unit axis" operations at an index.

  A sum over the last axis of an `[a, b]` array, kept as an `[a, 1]` column, is met as three operations: the lane
  sum to `[a]`, the cast `[a] → [a, 1]`, and later a broadcast of the column (or of a `[1, 1]` scalar) back over
  rows or lanes.  Each lemma reads one of them at an index built from coordinates.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.Keepdims

open Idealize.ShloMosaic Idealize.ShloMosaic.ValueIdx

variable {α : Type}

/-- The lane sum of an `[a, b]` array into the zero accumulator, at row `r`, is the sum of the row's entries. -/
theorem rowSum_apply {a b : ℕ} (v : FVec Ideal ⟨2, ![a, b]⟩ .f32) (h : (⟨2, ![a, b]⟩ : Shape).Reduces [1] ⟨1, ![a]⟩)
    (hacc : (0x00000000#32 : BitVec 32) = 0x00000000#32) (r : Fin a) :
    multiReduction .add [1] ⟨1, ![a]⟩ v 0x00000000#32 h (.inl rfl) hacc (ix1 r) = ∑ k : Fin b, v (ix2 r k) :=
  (Ideal.multiReduction_add_single v 0x00000000#32 h (.inl rfl) hacc (ix1 r)).trans
    (Finset.sum_congr rfl fun k _ => congrArg v (funext fun ax => Fin.ext (by
      match ax with
      | ⟨0, _⟩ => rfl
      | ⟨1, _⟩ => rfl)))

/-- An `[a]` array cast to the column `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `b` lanes reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- A `[1, 1]` scalar broadcast down a column `[a, 1]` reads, at `(r, u)`, the scalar. -/
theorem broadcastTo_11_a1_apply {a : ℕ} (v : (⟨2, ![1, 1]⟩ : Shape).Idx → α) (h : (⟨2, ![1, 1]⟩ : Shape).Broadcasts ⟨2, ![a, 1]⟩)
    (r : Fin a) (u : Fin 1) : broadcastTo ⟨2, ![a, 1]⟩ v h (ix2 r u) = v (ix2 (0 : Fin 1) (0 : Fin 1)) := by
  refine broadcastTo_apply v h (ix2 r u) (ix2 (0 : Fin 1) (0 : Fin 1)) fun ax => ?_
  match ax with
  | ⟨0, _⟩ => rfl
  | ⟨1, _⟩ => rfl

end Idealize.ShloMosaic.Keepdims

end
-- ==== Proof.BlockMath.lean ====
/-
  The pooling kernel's block arithmetic read at an index, on the extended reals.

  The block product at slot row `p` and lane `q` is the sum over the 1024 tokens `j` of the block of (1 if the slot's
  identifier `wi · 1024 + p` is token `j`'s, else 0) times the token's row entry: the sum of the entries of the tokens
  carrying that identifier.  A change of float format is the identity on the extended reals, zero times anything is
  zero and one times anything is itself, so nothing here needs a finite entry.
-/
import proofs.«126478_j41961830481956_2_alg».proof.Proof.Gen.KernelIdeal.Skeleton
import proofs.«126478_j41961830481956_2_alg».proof.Proof.LibPlainDot
import proofs.«126478_j41961830481956_2_alg».proof.Proof.LibOneHot
import proofs.«126478_j41961830481956_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockMath

open Cert.KernelIdeal Cert.KernelIdeal.Facts₀ Idealize.ShloMosaic Idealize.ShloMosaic.ValueIdx

/-- The kernel's product record, for short. -/
abbrev D : DotDims S1024x1024 S1024x768 S1024x768 := dot_S1024x1024_S1024x768_S1024x768_1_0_0_1_n_n

theorem D_rank : D.contr.rank = 1 := rfl
theorem D_size : D.contr.size ⟨0, by rw [D_rank]; exact Nat.one_pos⟩ = 1024 := rfl
theorem D_l0 : ∀ (i : S1024x768.Idx) (q : D.contr.Idx), (D.lhsIdx i q 0).val = (i 0).val := fun i q => by
  unfold DotDims.lhsIdx
  rw [dif_neg (show ¬(0 : Fin 2) ∈ D.lhsBatch by decide), dif_pos (show (0 : Fin 2) ∈ D.lhsNonContracting by decide)]
  rfl
theorem D_l1 : ∀ (i : S1024x768.Idx) (q : D.contr.Idx), (D.lhsIdx i q 1).val = (q ⟨0, by rw [D_rank]; exact Nat.one_pos⟩).val :=
  fun i q => D.lhsIdx_val_of_single (cl := 1) rfl i q
theorem D_r0 : ∀ (i : S1024x768.Idx) (q : D.contr.Idx), (D.rhsIdx i q 0).val = (q ⟨0, by rw [D_rank]; exact Nat.one_pos⟩).val :=
  fun i q => D.rhsIdx_val_of_single (cr := 0) rfl i q
theorem D_r1 : ∀ (i : S1024x768.Idx) (q : D.contr.Idx), (D.rhsIdx i q 1).val = (i 1).val := fun i q => by
  unfold DotDims.rhsIdx
  rw [dif_neg (show ¬(1 : Fin 2) ∈ D.rhsBatch by decide), dif_pos (show (1 : Fin 2) ∈ D.rhsNonContracting by decide)]
  rfl

/-- The zeros, at an index. -/
theorem pay1_apply (j : S1024x768.Idx) : Gen.k0_pay1 (F := Ideal) j = 0 := by
  unfold Gen.k0_pay1
  refine (congrFun (shapeCast_self _ _) j).trans ?_
  exact Ideal.ofBits_zero_f32

/-- The slot identifier as the kernel forms it — slot block `a` times 1024, plus the row `p` — is the word of the number
    `a · 1024 + p`. -/
theorem slot_word (a p : ℕ) :
    Scalar.muli (BitVec.ofNat 32 a) 1024#32 + BitVec.ofNat 32 p = BitVec.ofNat 32 (a * 1024 + p) := by
  show BitVec.ofNat 32 a * BitVec.ofNat 32 1024 + BitVec.ofNat 32 p = _
  rw [BitVec.ofNat_add, BitVec.ofNat_mul]

/-- The indicator entry: the slot identifier `w + p` of row `p` against token `j`'s identifier, as the number 1 or 0. -/
theorem onehot_apply (w : BitVec 32) (x1 : Vec Ideal S1x1x1024 .i32) (p j : Fin 1024) :
    (truncf .bf16 (sitofp (F := Ideal) .f32 (extui 32 (cmpi .eq (addi (broadcast S1024x1024 w)
        (iota .tc S1024x1024 32 [0] iota_S1024x1024_d0_w32))
        (broadcastTo S1024x1024 (shapeCast S1x1024 x1 shapeCasts_S1x1x1024_S1x1024) broadcasts_S1x1024_S1024x1024)) natLt_1_32))
      bitsLt_bf16_f32 : FVec Ideal S1024x1024 .bf16) (ix2 p j)
      = if w + BitVec.ofNat 32 p.val = x1 (ix3 (0 : Fin 1) (0 : Fin 1) j) then (1 : EReal) else 0 := by
  have hb : broadcastTo S1024x1024 (shapeCast S1x1024 x1 shapeCasts_S1x1x1024_S1x1024) broadcasts_S1x1024_S1024x1024 (ix2 p j)
      = x1 (ix3 (0 : Fin 1) (0 : Fin 1) j) := by
    refine (broadcastTo_apply _ _ (ix2 p j) (ix2 (0 : Fin 1) j) (fun a => by
      match a with
      | ⟨0, _⟩ => rfl
      | ⟨1, _⟩ => rfl)).trans ?_
    exact shapeCast_1ab_ab_apply x1 shapeCasts_S1x1x1024_S1x1024 (0 : Fin 1) j
  have hi : iota .tc S1024x1024 32 [0] iota_S1024x1024_d0_w32 (ix2 p j) = BitVec.ofNat 32 p.val :=
    iota_single_apply .tc S1024x1024 32 0 iota_S1024x1024_d0_w32 (ix2 p j)
  -- a change of format is the identity, the conversion reads the widened bit signed
  have h1 : (truncf .bf16 (sitofp (F := Ideal) .f32 (extui 32 (cmpi .eq (addi (broadcast S1024x1024 w)
        (iota .tc S1024x1024 32 [0] iota_S1024x1024_d0_w32))
        (broadcastTo S1024x1024 (shapeCast S1x1024 x1 shapeCasts_S1x1x1024_S1x1024) broadcasts_S1x1024_S1024x1024)) natLt_1_32))
      bitsLt_bf16_f32 : FVec Ideal S1024x1024 .bf16) (ix2 p j)
      = ((((IntOp.cmpi .eq (w + iota .tc S1024x1024 32 [0] iota_S1024x1024_d0_w32 (ix2 p j))
          (broadcastTo S1024x1024 (shapeCast S1x1024 x1 shapeCasts_S1x1x1024_S1x1024) broadcasts_S1x1024_S1024x1024
            (ix2 p j))).zeroExtend 32).toInt : ℝ) : EReal) := rfl
  rw [h1, hb, hi, Cert.LibOneHot.toInt_zeroExtend_bit]
  by_cases hc : w + BitVec.ofNat 32 p.val = x1 (ix3 (0 : Fin 1) (0 : Fin 1) j)
  · rw [if_pos (IntOp.cmpi_eq.2 hc), if_pos hc]; exact EReal.coe_one
  · rw [if_neg (fun h => hc (IntOp.cmpi_eq.1 h)), if_neg hc]; exact EReal.coe_zero

/-- The token rows of the block, in the product's format, at `(j, q)`. -/
theorem rows_apply (x0 : Vec Ideal S1x1024x768 .f32) (j : Fin 1024) (q : Fin 768) :
    (truncf .bf16 (shapeCast S1024x768 x0 shapeCasts_S1x1024x768_S1024x768 : FVec Ideal S1024x768 .f32) bitsLt_bf16_f32
      : FVec Ideal S1024x768 .bf16) (ix2 j q) = x0 (ix3 (0 : Fin 1) j q) :=
  shapeCast_1ab_ab_apply x0 shapeCasts_S1x1024x768_S1024x768 j q

/-- The accumulation step at `(p, q)`: the old entry plus the sum of the block's token entries whose identifier is the
    slot `wi · 1024 + p`, where `wi` is the slot-block coordinate of the grid point. -/
theorem pay2_apply (i : grid0.Coords) (x1 : Vec Ideal S1x1x1024 .i32) (x0 : Vec Ideal S1x1024x768 .f32)
    (s : Vec Ideal S1024x768 .f32) (p : Fin 1024) (q : Fin 768) :
    Gen.k0_pay2 i x1 x0 s (ix2 p q) = s (ix2 p q) + ∑ j : Fin 1024,
      if BitVec.ofNat 32 ((i 1).val * 1024 + p.val) = x1 (ix3 (0 : Fin 1) (0 : Fin 1) j) then x0 (ix3 (0 : Fin 1) j q) else 0 := by
  unfold Gen.k0_pay2
  refine (congrFun (shapeCast_self _ _) (ix2 p q)).trans ?_
  refine congrArg (s (ix2 p q) + ·) ?_
  refine (PlainDot.matmul_zero_apply D none D_rank D_size D_l0 D_l1 D_r0 D_r1 _ _ p q).trans ?_
  refine Finset.sum_congr rfl fun j _ => ?_
  refine (congrArg₂ (· * ·) (onehot_apply (Scalar.muli (BitVec.ofNat 32 (i 1).val) 1024#32) x1 p j)
    (rows_apply x0 j q)).trans ?_
  rw [slot_word, Cert.LibOneHot.ite_mul]

/-- The division step at `(u, p, q)`: the accumulated entry times the row's reciprocal count. -/
theorem pay3_apply (a : Vec Ideal S1024x768 .f32) (x2 : Vec Ideal S1x1024x1 .f32) (u : Fin 1) (p : Fin 1024) (q : Fin 768) :
    Gen.k0_pay3 a x2 (ix3 u p q) = a (ix2 p q) * x2 (ix3 (0 : Fin 1) p (0 : Fin 1)) := by
  unfold Gen.k0_pay3
  refine (shapeCast_ab_1ab_apply _ _ u p q).trans ?_
  refine congrArg (a (ix2 p q) * ·) ?_
  refine (Keepdims.broadcastTo_a1_ab_apply _ _ p q).trans ?_
  exact shapeCast_1ab_ab_apply x2 shapeCasts_S1x1024x1_S1024x1 p (0 : Fin 1)

end Cert.KernelIdeal.BlockMath

end
-- ==== Proof.LibBlockSum.lean ====
/-
  A sum over 4096 positions, taken block by block.

  Cut `a · b` positions into `a` consecutive blocks of `b`: position `k · b + j` is position `j` of block `k`, and every
  position is of that form exactly once.  So the sum over all positions is the sum over the blocks of each block's sum.
  Stated in general, then for four blocks of 1024, also in the left-nested form an accumulation from zero produces.
-/
import Mathlib.Algebra.BigOperators.Fin
import Mathlib.Logic.Equiv.Fin.Basic

namespace Cert.LibBlockSum

open scoped BigOperators

/-- Position `j` of block `k` is a position of the whole. -/
theorem block_lt {a b : ℕ} (k : Fin a) (j : Fin b) : k.val * b + j.val < a * b :=
  calc k.val * b + j.val < k.val * b + b := Nat.add_lt_add_left j.isLt _
    _ = (k.val + 1) * b := (Nat.succ_mul _ _).symm
    _ ≤ a * b := Nat.mul_le_mul_right _ k.isLt

/-- The sum over `a · b` positions is the sum over the `a` blocks of the sum over each block's `b` positions. -/
theorem sum_fin_blocks {M : Type*} [AddCommMonoid M] (a b : ℕ) (f : Fin (a * b) → M) :
    ∑ k : Fin a, ∑ j : Fin b, f ⟨k.val * b + j.val, block_lt k j⟩ = ∑ t : Fin (a * b), f t := by
  rw [← Fintype.sum_prod_type (f := fun x : Fin a × Fin b => f ⟨x.1.val * b + x.2.val, block_lt x.1 x.2⟩)]
  refine Fintype.sum_equiv finProdFinEquiv _ _ fun x => congrArg f (Fin.ext ?_)
  show x.1.val * b + x.2.val = x.2.val + b * x.1.val
  rw [Nat.mul_comm, Nat.add_comm]

/-- Four blocks of 1024: the sum over 4096 positions is the sum of the four block sums. -/
theorem sum_four_blocks {M : Type*} [AddCommMonoid M] (f : Fin 4096 → M) :
    ∑ k : Fin 4, ∑ j : Fin 1024, f ⟨k.val * 1024 + j.val, by omega⟩ = ∑ t : Fin 4096, f t :=
  sum_fin_blocks 4 1024 f

/-- The same, as an accumulation from zero adds the four block sums one after the other. -/
theorem sum_four_blocks_acc {M : Type*} [AddCommMonoid M] (f : Fin 4096 → M) :
    ((((0 + ∑ j : Fin 1024, f ⟨0 * 1024 + j.val, by omega⟩) + ∑ j : Fin 1024, f ⟨1 * 1024 + j.val, by omega⟩)
        + ∑ j : Fin 1024, f ⟨2 * 1024 + j.val, by omega⟩) + ∑ j : Fin 1024, f ⟨3 * 1024 + j.val, by omega⟩)
      = ∑ t : Fin 4096, f t := by
  rw [← sum_four_blocks f, Fin.sum_univ_four, zero_add]
  rfl

end Cert.LibBlockSum
-- ==== Proof.KernelValue.lean ====
/-
  The pooling kernel's run, read: its results are the specification's.

  The 256 grid points run sentence-major, then slot block, then token block.  At the four points of a pair (sentence
  `b`, slot block `wi`) the running block gains, point by point, the sum over one token block of the entries of the
  tokens whose identifier is the slot `wi · 1024 + p` — nothing when the point's overlap word is zero, and then that sum
  is zero too, because no identifier of the token block names a slot of the slot block.  After the fourth point the
  running block holds the sum over all 4096 tokens of the sentence, the specification's `wsum`; the output block is that
  sum times the reciprocal of the clipped count, which is the sum divided by the clipped count because the clipped
  count is never zero: the specification's `mean`.  The last points' blocks cover the result array, and the occupancy
  mask is computed before the grid from the same counts.
-/
import proofs.«126478_j41961830481956_2_alg».proof.Proof.Gen.KernelIdeal.Frame
import proofs.«126478_j41961830481956_2_alg».proof.Proof.KernelChain
import proofs.«126478_j41961830481956_2_alg».proof.Proof.KernelBlocks
import proofs.«126478_j41961830481956_2_alg».proof.Proof.OverlapFacts
import proofs.«126478_j41961830481956_2_alg».proof.Proof.SegMean
import proofs.«126478_j41961830481956_2_alg».proof.Proof.BlockMath
import proofs.«126478_j41961830481956_2_alg».proof.Proof.LibBlockSum
import Idealize.ShloMosaic.Lib.Pipeline.Value
import Idealize.ShloMosaic.Lib.StableHlo.Run
import Idealize.ShloMosaic.Lib.Affine
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Pooled

open Cert.KernelIdeal Cert.KernelIdeal.Gen

variable (m : (ℓ : Loc nD τ sig) → Buf (Elt Ideal) ℓ)

/-- The slot-block coordinate of grid point `t`, decided over the 256 points. -/
theorem coord1 : ∀ t : Fin grid0.N, (grid0.coords t 1).val = t.val / 4 % 4 := by decide +kernel

/-- A point that does not add its block product read the overlap word 0. -/
theorem word_zero (i : grid0.Coords) (v : BitVec 32) (h : ¬cond0_1 i v) : v = 0#32 := by
  by_contra hv
  exact h ((Scalar.guard_iff _).2 (IntOp.cmpi_ne.2 hv))

/-- The sum, over the 1024 tokens of token block `ti` of sentence `b`, of the entries in lane `q` of the tokens whose
    identifier is the slot `wi · 1024 + p`. -/
def blockSum (emb : Cert.SegMean.SEmb.Idx → EReal) (ids : IVec Cert.SegMean.SIds 32) (b : Fin 16) (wi ti : Fin 4)
    (p : Fin 1024) (q : Fin 768) : EReal :=
  ∑ j : Fin 1024, if ids (ix2 b (⟨ti.val * 1024 + j.val, by omega⟩ : Fin 4096)) = BitVec.ofNat 32 (wi.val * 1024 + p.val)
    then emb (ix3 b (⟨ti.val * 1024 + j.val, by omega⟩ : Fin 4096) q) else 0

/-- One point's effect on the running block, at `(p, q)`: it gains the point's block sum — when the overlap word is 0
    nothing is added, and the block sum is 0 because no identifier of the token block names a slot of the slot block. -/
theorem step_apply (hO : Ok m) (c : Dev nD) (s : Vec Ideal S1024x768 .f32) (t : Fin (cfgM m hO).N)
    (b : Fin 16) (wi ti : Fin 4) (hb : b.val = t.val / 16) (hwi : wi.val = t.val / 4 % 4) (hti : ti.val = t.val % 4)
    (p : Fin 1024) (q : Fin 768) :
    Chain.step m hO c s t (ix2 p q) = s (ix2 p q)
      + blockSum (m ((c : Thread nD τ).loc main_arg0)) (m ((c : Thread nD τ).loc main_arg1)) b wi ti p q := by
  have ht : t.val < 256 := t.isLt
  have hb' : t.val / 16 < 16 := by clear hb hwi hti; omega
  have hwi' : t.val / 4 % 4 < 4 := Nat.mod_lt _ (by decide)
  have hti' : t.val % 4 < 4 := Nat.mod_lt _ (by decide)
  obtain rfl : b = ⟨t.val / 16, hb'⟩ := Fin.ext hb
  obtain rfl : wi = ⟨t.val / 4 % 4, hwi'⟩ := Fin.ext hwi
  obtain rfl : ti = ⟨t.val % 4, hti'⟩ := Fin.ext hti
  unfold Chain.step blockSum
  by_cases h1 : Chain.hit m hO t
  · rw [if_pos h1]
    refine (BlockMath.pay2_apply (grid0.coords t) (iblk m hO c 1 t) (iblk m hO c 0 t) s p q).trans ?_
    refine congrArg (s (ix2 p q) + ·) (Finset.sum_congr rfl fun j _ => ?_)
    have e1 := Blocks.iblk1_apply m hO c t 0 0 j
    have e0 := Blocks.iblk0_apply m hO c t 0 j q
    rw [e1, e0, coord1 t]
    by_cases hc : m ((c : Thread nD τ).loc main_arg1) (ix2 (⟨t.val / 16, by omega⟩ : Fin 16)
        (⟨t.val % 4 * 1024 + j.val, by omega⟩ : Fin 4096)) = BitVec.ofNat 32 (t.val / 4 % 4 * 1024 + p.val)
    · rw [if_pos hc.symm, if_pos hc]
    · rw [if_neg (fun h => hc h.symm), if_neg hc]
  · rw [if_neg h1]
    have hw : Chain.wordAt m hO t = 0#32 := word_zero _ _ h1
    rw [show Chain.wordAt m hO t = _ from Blocks.word_eq m hO t] at hw
    obtain rfl : c = 0 := Subsingleton.elim _ _
    rw [Finset.sum_eq_zero (fun j _ => if_neg (Overlap.no_hit (m (((0 : Dev nD) : Thread nD τ).loc main_arg1))
      (⟨t.val / 16, by omega⟩ : Fin 16) (⟨t.val / 4 % 4, by omega⟩ : Fin 4) (⟨t.val % 4, by omega⟩ : Fin 4) p j hw)), add_zero]

/-- The running block after the first of four points: the zeros plus the first token block's sum. -/
theorem acc_first (hO : Ok m) (c : Dev nD) (n : ℕ) (h : n < (cfgM m hO).N) (h0 : n % 4 = 0)
    (b : Fin 16) (wi : Fin 4) (hb : b.val = n / 16) (hwi : wi.val = n / 4 % 4) (p : Fin 1024) (q : Fin 768) :
    Chain.acc m hO c n h (ix2 p q)
      = 0 + blockSum (m ((c : Thread nD τ).loc main_arg0)) (m ((c : Thread nD τ).loc main_arg1)) b wi (⟨0, by decide⟩ : Fin 4) p q := by
  cases n with
  | zero =>
    rw [Chain.acc_zero, step_apply m hO c _ ⟨0, h⟩ b wi (⟨0, by decide⟩ : Fin 4) hb hwi rfl p q, BlockMath.pay1_apply]
  | succ n =>
    rw [Chain.acc_succ, if_pos h0,
      step_apply m hO c _ ⟨n + 1, h⟩ b wi (⟨0, by decide⟩ : Fin 4) hb hwi (by show 0 = (n + 1) % 4; omega) p q,
      BlockMath.pay1_apply]

/-- The running block after a later one of the four points: what the point before left plus the point's block sum. -/
theorem acc_next (hO : Ok m) (c : Dev nD) (n : ℕ) (h : n + 1 < (cfgM m hO).N) (h0 : ¬(n + 1) % 4 = 0)
    (b : Fin 16) (wi ti : Fin 4) (hb : b.val = (n + 1) / 16) (hwi : wi.val = (n + 1) / 4 % 4) (hti : ti.val = (n + 1) % 4)
    (p : Fin 1024) (q : Fin 768) :
    Chain.acc m hO c (n + 1) h (ix2 p q)
      = Chain.acc m hO c n (Nat.lt_of_succ_lt h) (ix2 p q)
        + blockSum (m ((c : Thread nD τ).loc main_arg0)) (m ((c : Thread nD τ).loc main_arg1)) b wi ti p q := by
  rw [Chain.acc_succ, if_neg h0, step_apply m hO c _ ⟨n + 1, h⟩ b wi ti hb hwi hti p q]

/-- After the fourth point the running block holds the four token blocks' sums, added in order from zero. -/
theorem acc_last (hO : Ok m) (c : Dev nD) (n : ℕ) (h : n + 3 < (cfgM m hO).N) (h0 : n % 4 = 0)
    (b : Fin 16) (wi : Fin 4) (hb : b.val = n / 16) (hwi : wi.val = n / 4 % 4) (p : Fin 1024) (q : Fin 768) :
    Chain.acc m hO c (n + 3) h (ix2 p q)
      = (((0 + blockSum (m ((c : Thread nD τ).loc main_arg0)) (m ((c : Thread nD τ).loc main_arg1)) b wi (⟨0, by decide⟩ : Fin 4) p q)
          + blockSum (m ((c : Thread nD τ).loc main_arg0)) (m ((c : Thread nD τ).loc main_arg1)) b wi (⟨1, by decide⟩ : Fin 4) p q)
          + blockSum (m ((c : Thread nD τ).loc main_arg0)) (m ((c : Thread nD τ).loc main_arg1)) b wi (⟨2, by decide⟩ : Fin 4) p q)
          + blockSum (m ((c : Thread nD τ).loc main_arg0)) (m ((c : Thread nD τ).loc main_arg1)) b wi (⟨3, by decide⟩ : Fin 4) p q := by
  have h2 : n + 2 < (cfgM m hO).N := by omega
  have h1 : n + 1 < (cfgM m hO).N := by omega
  have hn : n < (cfgM m hO).N := by omega
  rw [acc_next m hO c (n + 2) h (by omega) b wi (⟨3, by decide⟩ : Fin 4) (by omega) (by omega) (by show 3 = (n + 2 + 1) % 4; omega) p q,
    acc_next m hO c (n + 1) h2 (by omega) b wi (⟨2, by decide⟩ : Fin 4) (by omega) (by omega) (by show 2 = (n + 1 + 1) % 4; omega) p q,
    acc_next m hO c n h1 (by omega) b wi (⟨1, by decide⟩ : Fin 4) (by omega) (by omega) (by show 1 = (n + 1) % 4; omega) p q,
    acc_first m hO c n hn h0 b wi hb hwi p q]

/-- The four token blocks' sums, added in order from zero, are the sum over all 4096 tokens of the sentence. -/
theorem four_blockSums (emb : Cert.SegMean.SEmb.Idx → EReal) (ids : IVec Cert.SegMean.SIds 32) (b : Fin 16) (wi : Fin 4)
    (p : Fin 1024) (q : Fin 768) :
    (((0 + blockSum emb ids b wi (⟨0, by decide⟩ : Fin 4) p q) + blockSum emb ids b wi (⟨1, by decide⟩ : Fin 4) p q)
        + blockSum emb ids b wi (⟨2, by decide⟩ : Fin 4) p q) + blockSum emb ids b wi (⟨3, by decide⟩ : Fin 4) p q
      = Cert.SegMean.wsum emb ids b (⟨wi.val * 1024 + p.val, by omega⟩ : Fin 4096) q := by
  unfold blockSum Cert.SegMean.wsum
  exact Cert.LibBlockSum.sum_four_blocks_acc (fun t' : Fin 4096 =>
    if ids (ix2 b t') = BitVec.ofNat 32 (wi.val * 1024 + p.val) then emb (ix3 b t' q) else 0)

/-- At the last of the four points of the pair (sentence `b`, slot block `wi`) the running block holds, at `(p, q)`, the
    sum of lane `q` over all the sentence's tokens whose identifier is the slot `wi · 1024 + p`. -/
theorem acc_wsum (hO : Ok m) (c : Dev nD) (t : Fin (cfgM m hO).N) (h3 : t.val % 4 = 3) (p : Fin 1024) (q : Fin 768) :
    Chain.acc m hO c t.val t.isLt (ix2 p q)
      = Cert.SegMean.wsum (m ((c : Thread nD τ).loc main_arg0)) (m ((c : Thread nD τ).loc main_arg1))
          (⟨t.val / 16, by have ht : t.val < 256 := t.isLt; omega⟩ : Fin 16)
          (⟨t.val / 4 % 4 * 1024 + p.val, by have := p.isLt; omega⟩ : Fin 4096) q := by
  obtain ⟨tv, ht⟩ := t
  have ht' : tv < 256 := ht
  have h3' : tv % 4 = 3 := h3
  obtain ⟨n, rfl⟩ : ∃ n, tv = n + 3 := ⟨tv - 3, by omega⟩
  show Chain.acc m hO c (n + 3) ht (ix2 p q) = _
  rw [acc_last m hO c n ht (by omega) (⟨(n + 3) / 16, by omega⟩ : Fin 16) (⟨(n + 3) / 4 % 4, by omega⟩ : Fin 4)
    (by show (n + 3) / 16 = n / 16; omega) (by show (n + 3) / 4 % 4 = n / 4 % 4; omega) p q]
  exact four_blockSums _ _ _ _ p q

/-! ## The output block a last point writes back -/

/-- Where the output window's block at point `t` sits in the result array: sentence `b`, slots `wi · 1024 + p`. -/
theorem emb3_apply (hO : Ok m) (t : Fin (cfgM m hO).N) (u : Fin 1) (p : Fin 1024) (q : Fin 768) :
    (((cfgM m hO).win 3).blk t).view.emb (ix3 u p q : S1x1024x768.Idx)
      = (ix3 (⟨t.val / 16, by have ht : t.val < 256 := t.isLt; omega⟩ : Fin 16)
          (⟨t.val / 4 % 4 * 1024 + p.val, by have := p.isLt; omega⟩ : Fin 4096) q : S16x4096x768.Idx) := by
  obtain ⟨-, -, -, -, -, -, -, -, -, e0, e1, e2, -⟩ := Blocks.coords_facts t
  have hu : u.val = 0 := by have := u.isLt; omega
  funext a
  apply Fin.ext
  match a with
  | ⟨0, _⟩ =>
    show cc0_transform_3 (grid0.coords t) 0 * 1 + 1 * u.val = t.val / 16
    rw [e0]; omega
  | ⟨1, _⟩ =>
    show cc0_transform_3 (grid0.coords t) 1 * 1024 + 1 * p.val = t.val / 4 % 4 * 1024 + p.val
    rw [e1]; omega
  | ⟨2, _⟩ =>
    show cc0_transform_3 (grid0.coords t) 2 * 768 + 1 * q.val = q.val
    rw [e2]; omega

/-- At a last point the output block is, entry by entry, the specification's mean: the running block's sum times the
    reciprocal of the clipped count is the sum divided by the clipped count, which is never zero. -/
theorem out_apply (hO : Ok m) (c : Dev nD) (t : Fin (cfgM m hO).N) (h3 : t.val % 4 = 3) (u : Fin 1) (p : Fin 1024) (q : Fin 768) :
    k0_pay3 (Chain.acc m hO c t.val t.isLt) (iblk m hO c 2 t) (ix3 u p q)
      = Cert.SegMean.mean (m ((c : Thread nD τ).loc main_arg0)) (m ((c : Thread nD τ).loc main_arg1))
          (Blocks.counts (m ((c : Thread nD τ).loc main_arg1)))
          (ix3 (⟨t.val / 16, by have ht : t.val < 256 := t.isLt; omega⟩ : Fin 16)
            (⟨t.val / 4 % 4 * 1024 + p.val, by have := p.isLt; omega⟩ : Fin 4096) q) := by
  refine (BlockMath.pay3_apply (Chain.acc m hO c t.val t.isLt) (iblk m hO c 2 t) u p q).trans ?_
  have e2 := Blocks.iblk2_apply m hO c t 0 p 0
  rw [e2, acc_wsum m hO c t h3 p q, Cert.SegMean.mul_recip _ _ (Cert.SegMean.clip_ne_zero _)]
  rfl

/-- At a last point the output block, at any of its indices, is the specification's mean at the index's place in the
    result array. -/
theorem flushed3_apply (hO : Ok m) (c : Dev nD) (t : Fin (cfgM m hO).N) (h3 : t.val % 4 = 3) (j : S1x1024x768.Idx) :
    k0_pay3 (Chain.acc m hO c t.val t.isLt) (iblk m hO c 2 t) j
      = Cert.SegMean.mean (m ((c : Thread nD τ).loc main_arg0)) (m ((c : Thread nD τ).loc main_arg1))
          (Blocks.counts (m ((c : Thread nD τ).loc main_arg1))) ((((cfgM m hO).win 3).blk t).view.emb j) := by
  obtain ⟨u, p, q, rfl⟩ : ∃ (u : Fin 1) (p : Fin 1024) (q : Fin 768), j = ix3 u p q := ⟨j 0, j 1, j 2, eq_ix3 j⟩
  exact (out_apply m hO c t h3 u p q).trans (congrArg (Cert.SegMean.mean (m ((c : Thread nD τ).loc main_arg0))
    (m ((c : Thread nD τ).loc main_arg1)) (Blocks.counts (m ((c : Thread nD τ).loc main_arg1)))) (emb3_apply m hO t u p q)).symm

/-- The output window is never cut: what a write-back moves is the whole staged block. -/
theorem cut3 (hO : Ok m) (t : Fin (cfgM m hO).N) (X : S1x1024x768.Idx → EReal)
    (j : (((cfgM m hO).win 3).xblock (grid0.coords t)).Idx) : ((cfgM m hO).win 3).cut (grid0.coords t) X j = X j := rfl

/-- A block of the result array read at one of its indices is the array at the index's place. -/
theorem read3 (hO : Ok m) (t : Fin (cfgM m hO).N) (G : S16x4096x768.Idx → EReal)
    (j : (((cfgM m hO).win 3).xblock (grid0.coords t)).Idx) :
    (((cfgM m hO).win 3).blk t).view.read (Elt Ideal) G j = G ((((cfgM m hO).win 3).blk t).view.emb j) := rfl

set_option maxHeartbeats 1000000 in
/-- What a last point writes back is its block of the specification's mean. -/
theorem flushed3_eq (hO : Ok m) (c : Dev nD) (t : Fin (cfgM m hO).N) (hf : ((cfgM m hO).win 3).flush t = true) :
    (dats m hO 0 c).flushed 3 t = (((cfgM m hO).win 3).blk t).view.read (Elt Ideal)
      (Cert.SegMean.mean (m ((c : Thread nD τ).loc main_arg0)) (m ((c : Thread nD τ).loc main_arg1))
        (Blocks.counts (m ((c : Thread nD τ).loc main_arg1)))) := by
  have h3 : t.val % 4 = 3 := (flush0_3 (adm m hO) t).1 hf
  show ((cfgM m hO).win 3).cut (grid0.coords t) ((dats m hO 0 c).after 3 t) = _
  rw [after0_3, Chain.out_eq m hO c t h3]
  funext j
  exact (cut3 m hO t _ j).trans ((flushed3_apply m hO c t h3 j).trans (read3 m hO t _ j).symm)

/-- So the result array ends holding the specification's mean: the last points' blocks cover it. -/
theorem final3 (hO : Ok m) (c : Dev nD) :
    (dats m hO 0 c).arrAt 3 (cfgM m hO).N
      = Cert.SegMean.mean (m ((c : Thread nD τ).loc main_arg0)) (m ((c : Thread nD τ).loc main_arg1))
          (Blocks.counts (m ((c : Thread nD τ).loc main_arg1))) :=
  (dats m hO 0 c).arrAt_eq_of_cover 3 _ (fun t hf => flushed3_eq m hO c t hf) (Blocks.cover3 m hO)

/-- The run, read: the pooled rows are the specification's mean and the mask its occupancy, both over the program's own
    counts, and the arguments are unchanged. -/
theorem run (m : (ℓ : Loc nD τ sig) → Buf (Elt Ideal) ℓ) (ρ : Dev nD → PrngReg) (hO : Gen.Ok m) :
    θ_run defs (onTc (τ := τ) (main (F := Ideal))) ⟨m, fun _ => 0, ρ⟩ fun r => ∀ c : Dev nD,
      r.2.mem ((c : Thread nD τ).loc main_v41) = Cert.SegMean.mean (m ((c : Thread nD τ).loc main_arg0)) (m ((c : Thread nD τ).loc main_arg1)) (Blocks.counts (m ((c : Thread nD τ).loc main_arg1)))
      ∧ r.2.mem ((c : Thread nD τ).loc main_v14) = Cert.SegMean.occupied (Blocks.counts (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 3).trans (final3 m hO c),
      ((h c).2 main_v14 (by decide : main_v14 ∈ Pipeline.restRefs sig spec0)).trans (Blocks.v14_eq m c),
      ((h c).1 0).trans (((dats m hO 0 c).arrAt_in 0 rfl _).trans ((A_eq m hO c 0).trans (V_main_arg0 m c))),
      ((h c).2 main_arg1 (by decide : main_arg1 ∈ Pipeline.restRefs sig spec0)).trans (V_main_arg1 m c)⟩)
    (run_main m ρ hO)

end Cert.KernelIdeal.Pooled

end
-- ==== Proof.lean ====
/-
  Pooling token rows into word slots: the kernel and its reference compute one function on the extended reals.

  A batch holds 16 sentences of 4096 tokens; token `t` of sentence `b` carries a row of 768 numbers and a word
  identifier.  Word slot `(b, w)` receives the sum of the rows of sentence `b`'s tokens whose identifier is `w`,
  divided by the number of such tokens clipped below at one (Proof/SegMean.lean: `mean`), and the second result says
  which slots hold a token (`occupied`).

  The kernel walks, per sentence and per block of 1024 slots, the four blocks of 1024 tokens: it multiplies the 0/1
  matrix "slot carries the token's identifier" into the token rows and adds the product to a running block, skipping a
  token block whose identifiers cannot meet the slot block (a table of signed minima and maxima decides that, and a
  skipped product is zero); at the fourth block it multiplies by the reciprocal of the clipped count.  Zero times
  anything is zero and one times anything is itself on the extended reals, sums may be regrouped freely, and
  `x · (1 / y) = x / y` for every `y ≠ 0`: no entry needs to be finite.  The reference accumulates every token row at the
  flat slot `identifier + b · 4096`; that this lands in sentence `b`'s own slots, and only there, is where the
  precondition's range `0 ≤ identifier < 4096` is used.  Both programs count tokens by the same accumulation of ones,
  so the counts are one term on both sides.

  The frames: the kernel's two are the generated frame certificates, whose side condition on the prefetched table is
  void here; the reference's is its run with the results dropped.  The ideal pass rewrote no operation.
-/
import proofs.«126478_j41961830481956_2_alg».proof.Defs
import proofs.«126478_j41961830481956_2_alg».proof.Proof.Gen.Kernel
import proofs.«126478_j41961830481956_2_alg».proof.Proof.Gen.Kernel.Skeleton
import proofs.«126478_j41961830481956_2_alg».proof.Proof.Gen.Kernel.Launch
import proofs.«126478_j41961830481956_2_alg».proof.Proof.Gen.Kernel.Points
import proofs.«126478_j41961830481956_2_alg».proof.Proof.Gen.Kernel.Frame
import proofs.«126478_j41961830481956_2_alg».proof.Proof.Gen.KernelIdeal
import proofs.«126478_j41961830481956_2_alg».proof.Proof.Gen.KernelIdeal.Skeleton
import proofs.«126478_j41961830481956_2_alg».proof.Proof.Gen.KernelIdeal.Launch
import proofs.«126478_j41961830481956_2_alg».proof.Proof.Gen.KernelIdeal.Points
import proofs.«126478_j41961830481956_2_alg».proof.Proof.Gen.KernelIdeal.Frame
import proofs.«126478_j41961830481956_2_alg».proof.Proof.Gen.ReferenceIdeal
import proofs.«126478_j41961830481956_2_alg».proof.Proof.RefRunP
import proofs.«126478_j41961830481956_2_alg».proof.Proof.RefReadP
import proofs.«126478_j41961830481956_2_alg».proof.Proof.RefMean
import proofs.«126478_j41961830481956_2_alg».proof.Proof.PreRange
import proofs.«126478_j41961830481956_2_alg».proof.Proof.SegMean
import proofs.«126478_j41961830481956_2_alg».proof.Proof.KernelValue
import proofs.«126478_j41961830481956_2_alg».proof.Proof.Gen.Pre_finite_inputs
import Idealize.ShloMosaic.Adequacy
import Idealize.ShloMosaic.Init

noncomputable section

open Idealize.ShloMosaic Idealize.ShloMosaic.TcCoe Idealize.SL.Sem

/-! ## The claims -/

namespace Cert.Proof

/-- The printed program runs and leaves its arguments unchanged: the pipeline's side condition on the table is void. -/
theorem frame_k : Cert.frame_Kernel := fun m ρ _ => Cert.Kernel.Gen.frame m ρ trivial

/-- So does its reading on the extended reals. -/
theorem frame_ki : Cert.frame_KernelIdeal := fun m ρ _ => Cert.KernelIdeal.Gen.frame m ρ trivial

/-- The reference runs and leaves its arguments unchanged: its run, the results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- The ideal pass rewrote no operation. -/
theorem preserves : Cert.preserves_Kernel_KernelIdeal := trivial

/-- The two programs accumulate the token counts by the same operations. -/
theorem counts_eq (ids : IVec Cert.KernelIdeal.S16x4096 32) :
    Cert.KernelIdeal.Blocks.counts ids = Cert.ReferenceIdeal.ReadP.val_main_v14 (F := Ideal) ids := rfl

/-- On the extended reals both programs end with the specification's mean and occupancy mask over the same counts. -/
theorem algebraic : Cert.algebraic_KernelIdeal_ReferenceIdeal := by
  intro m ρ m' ρ' hpre hagree
  refine ⟨fun c => Cert.SegMean.mean (m ((c : Thread Cert.KernelIdeal.nD Cert.KernelIdeal.τ).loc Cert.KernelIdeal.main_arg0))
      (m ((c : Thread Cert.KernelIdeal.nD Cert.KernelIdeal.τ).loc Cert.KernelIdeal.main_arg1))
      (Cert.KernelIdeal.Blocks.counts (m ((c : Thread Cert.KernelIdeal.nD Cert.KernelIdeal.τ).loc Cert.KernelIdeal.main_arg1))),
    fun c => Cert.SegMean.occupied
      (Cert.KernelIdeal.Blocks.counts (m ((c : Thread Cert.KernelIdeal.nD Cert.KernelIdeal.τ).loc Cert.KernelIdeal.main_arg1))),
    Cert.KernelIdeal.Pooled.run m ρ trivial, ?_⟩
  refine (θ_run Cert.ReferenceIdeal.defs _ _).mono (fun _ h c => ?_) (Cert.ReferenceIdeal.ValueP.run (F := Ideal) m' ρ')
  obtain ⟨h20, h23, ha0, ha1⟩ := h c
  refine ⟨h20.trans ?_, h23.trans ?_, ha0, ha1⟩
  · -- the pooled rows: the reference's term is the mean, the identifiers being in range
    refine (Cert.ReferenceIdeal.ReadP.val_main_v20_eq (F := Ideal) _ _).trans ?_
    rw [(hagree c).1, (hagree c).2]
    exact Cert.RefMean.v20_eq _ _ (Cert.PreRange.range_of_pre _ _ (hpre c))
  · -- the occupancy mask
    refine (Cert.ReferenceIdeal.ReadP.val_main_v23_eq (F := Ideal) _).trans ?_
    rw [(hagree c).2]
    exact Cert.RefMean.v23_eq _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
